-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S327680 : Shape := ⟨1, ![327680]⟩
abbrev S40960 : Shape := ⟨1, ![40960]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg11 : FVec F S128x128 .f32) (main_arg12 : FVec F S128 .f32) (main_arg13 : FVec F S128x40 .f32) (main_arg14 : FVec F S40 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg13
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg14
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg8 : FVec F S256x128 .f32) (main_arg9 : FVec F S256x128 .f32) (main_arg10 : FVec F S128 .f32) (main_arg11 : FVec F S128x128 .f32) (main_arg12 : FVec F S128 .f32) (main_arg13 : FVec F S128x40 .f32) (main_arg14 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S262144x512 .f32) (main_arg1 : IVec S327680 32) (main_arg2 : IVec S327680 32) (main_arg3 : IVec S40960 32) (main_arg4 : IVec S40960 32) (main_arg5 : FVec F S512x256 .f32) (main_arg6 : FVec F S512x256 .f32) (main_arg7 : FVec F S256 .f32) (main_arg8 : FVec F S256x128 .f32) (main_arg9 : FVec F S256x128 .f32) (main_arg10 : FVec F S128 .f32) (main_arg11 : FVec F S128x128 .f32) (main_arg12 : FVec F S128 .f32) (main_arg13 : FVec F S128x40 .f32) (main_arg14 : FVec F S40 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512x256 .f32 := Host.absf main_arg5
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg6
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_v13 main_v16
-- ==== Kernel.lean ====
abbrev S262144x512 : Shape := ⟨2, ![262144, 512]⟩
abbrev S327680 : Shape := ⟨1, ![327680]⟩
abbrev S40960 : Shape := ⟨1, ![40960]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S32768x512 : Shape := ⟨2, ![32768, 512]⟩
abbrev S_ : Shape := ⟨0, ![]⟩
abbrev S327680x1 : Shape := ⟨2, ![327680, 1]⟩
abbrev S327680x512 : Shape := ⟨2, ![327680, 512]⟩
abbrev S32768 : Shape := ⟨1, ![32768]⟩
abbrev S32768x1 : Shape := ⟨2, ![32768, 1]⟩
abbrev S1x256 : Shape := ⟨2, ![1, 256]⟩
abbrev S32768x256 : Shape := ⟨2, ![32768, 256]⟩
abbrev S2048x512 : Shape := ⟨2, ![2048, 512]⟩
abbrev S2048x256 : Shape := ⟨2, ![2048, 256]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S2048x128 : Shape := ⟨2, ![2048, 128]⟩
abbrev S1x40 : Shape := ⟨2, ![1, 40]⟩
abbrev S4096x40 : Shape := ⟨2, ![4096, 40]⟩
abbrev S2048x40 : Shape := ⟨2, ![2048, 40]⟩

abbrev nBuf : Space → Nat
  | .hbm => 102
  | .vmem => 30
  | .smem => 0
  | _ => 0

abbrev bufTy : (tb : Table) → Fin (tcTables nBuf tb) → BufTy
  | .hbm, ⟨0, _⟩ => ⟨S262144x512, .f32⟩
  | .hbm, ⟨1, _⟩ => ⟨S327680, .i32⟩
  | .hbm, ⟨2, _⟩ => ⟨S327680, .i32⟩
  | .hbm, ⟨3, _⟩ => ⟨S40960, .i32⟩
  | .hbm, ⟨4, _⟩ => ⟨S40960, .i32⟩
  | .hbm, ⟨5, _⟩ => ⟨S512x256, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x40, .f32⟩
  | .hbm, ⟨14, _⟩ => ⟨S40, .f32⟩
  | .hbm, ⟨15, _⟩ => ⟨S32768x512, .f32⟩
  | .hbm, ⟨16, _⟩ => ⟨S_, .i32⟩
  | .hbm, ⟨17, _⟩ => ⟨S327680, .i32⟩
  | .hbm, ⟨18, _⟩ => ⟨S327680, .i1⟩
  | .hbm, ⟨19, _⟩ => ⟨S_, .i32⟩
  | .hbm, ⟨20, _⟩ => ⟨S327680, .i32⟩
  | .hbm, ⟨21, _⟩ => ⟨S327680, .i32⟩
  | .hbm, ⟨22, _⟩ => ⟨S327680, .i32⟩
  | .hbm, ⟨23, _⟩ => ⟨S327680x1, .i32⟩
  | .hbm, ⟨24, _⟩ => ⟨S327680x512, .f32⟩
  | .hbm, ⟨25, _⟩ => ⟨S_, .f32⟩
  | .hbm, ⟨26, _⟩ => ⟨S32768x512, .f32⟩
  | .hbm, ⟨27, _⟩ => ⟨S327680x1, .i32⟩
  | .hbm, ⟨28, _⟩ => ⟨S32768x512, .f32⟩
  | .hbm, ⟨29, _⟩ => ⟨S_, .f32⟩
  | .hbm, ⟨30, _⟩ => ⟨S327680, .f32⟩
  | .hbm, ⟨31, _⟩ => ⟨S_, .f32⟩
  | .hbm, ⟨32, _⟩ => ⟨S32768, .f32⟩
  | .hbm, ⟨33, _⟩ => ⟨S327680x1, .i32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768x1, .f32⟩
  | .hbm, ⟨39, _⟩ => ⟨S32768x512, .f32⟩
  | .hbm, ⟨40, _⟩ => ⟨S32768x512, .f32⟩
  | .hbm, ⟨41, _⟩ => ⟨S32768x512, .bf16⟩
  | .hbm, ⟨42, _⟩ => ⟨S32768x512, .bf16⟩
  | .hbm, ⟨43, _⟩ => ⟨S512x256, .bf16⟩
  | .hbm, ⟨44, _⟩ => ⟨S512x256, .bf16⟩
  | .hbm, ⟨45, _⟩ => ⟨S1x256, .f32⟩
  | .hbm, ⟨46, _⟩ => ⟨S32768x256, .f32⟩
  | .hbm, ⟨47, _⟩ => ⟨S4096x256, .f32⟩
  | .hbm, ⟨48, _⟩ => ⟨S_, .i32⟩
  | .hbm, ⟨49, _⟩ => ⟨S40960, .i32⟩
  | .hbm, ⟨50, _⟩ => ⟨S40960, .i1⟩
  | .hbm, ⟨51, _⟩ => ⟨S_, .i32⟩
  | .hbm, ⟨52, _⟩ => ⟨S40960, .i32⟩
  | .hbm, ⟨53, _⟩ => ⟨S40960, .i32⟩
  | .hbm, ⟨54, _⟩ => ⟨S40960, .i32⟩
  | .hbm, ⟨55, _⟩ => ⟨S40960x1, .i32⟩
  | .hbm, ⟨56, _⟩ => ⟨S40960x256, .f32⟩
  | .hbm, ⟨57, _⟩ => ⟨S_, .f32⟩
  | .hbm, ⟨58, _⟩ => ⟨S4096x256, .f32⟩
  | .hbm, ⟨59, _⟩ => ⟨S40960x1, .i32⟩
  | .hbm, ⟨60, _⟩ => ⟨S4096x256, .f32⟩
  | .hbm, ⟨61, _⟩ => ⟨S_, .f32⟩
  | .hbm, ⟨62, _⟩ => ⟨S40960, .f32⟩
  | .hbm, ⟨63, _⟩ => ⟨S_, .f32⟩
  | .hbm, ⟨64, _⟩ => ⟨S4096, .f32⟩
  | .hbm, ⟨65, _⟩ => ⟨S40960x1, .i32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1, .f32⟩
  | .hbm, ⟨71, _⟩ => ⟨S4096x256, .f32⟩
  | .hbm, ⟨72, _⟩ => ⟨S4096x256, .f32⟩
  | .hbm, ⟨73, _⟩ => ⟨S4096x256, .bf16⟩
  | .hbm, ⟨74, _⟩ => ⟨S4096x256, .bf16⟩
  | .hbm, ⟨75, _⟩ => ⟨S256x128, .bf16⟩
  | .hbm, ⟨76, _⟩ => ⟨S256x128, .bf16⟩
  | .hbm, ⟨77, _⟩ => ⟨S1x128, .f32⟩
  | .hbm, ⟨78, _⟩ => ⟨S4096x128, .f32⟩
  | .hbm, ⟨79, _⟩ => ⟨S4096x128, .bf16⟩
  | .hbm, ⟨80, _⟩ => ⟨S128x128, .bf16⟩
  | .hbm, ⟨81, _⟩ => ⟨S1x128, .f32⟩
  | .hbm, ⟨82, _⟩ => ⟨S4096x128, .f32⟩
  | .hbm, ⟨83, _⟩ => ⟨S4096x128, .bf16⟩
  | .hbm, ⟨84, _⟩ => ⟨S128x40, .bf16⟩
  | .hbm, ⟨85, _⟩ => ⟨S1x40, .f32⟩
  | .hbm, ⟨86, _⟩ => ⟨S4096x40, .f32⟩
  | .hbm, ⟨87, _⟩ => ⟨S_, .f32⟩
  | .hbm, ⟨88, _⟩ => ⟨S4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096x1, .f32⟩
  | .hbm, ⟨93, _⟩ => ⟨S4096x40, .f32⟩
  | .hbm, ⟨94, _⟩ => ⟨S4096x40, .f32⟩
  | .hbm, ⟨95, _⟩ => ⟨S4096x40, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x1, .f32⟩
  | .hbm, ⟨100, _⟩ => ⟨S4096x40, .f32⟩
  | .hbm, ⟨101, _⟩ => ⟨S4096x40, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x256, .bf16⟩
  | .local _ .vmem, ⟨5, _⟩ => ⟨S512x256, .bf16⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S256x128, .bf16⟩
  | .local _ .vmem, ⟨14, _⟩ => ⟨S256x128, .bf16⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S2048x128, .bf16⟩
  | .local _ .vmem, ⟨19, _⟩ => ⟨S2048x128, .bf16⟩
  | .local _ .vmem, ⟨20, _⟩ => ⟨S128x128, .bf16⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | .local _ .vmem, ⟨24, _⟩ => ⟨S2048x128, .bf16⟩
  | .local _ .vmem, ⟨25, _⟩ => ⟨S2048x128, .bf16⟩
  | .local _ .vmem, ⟨26, _⟩ => ⟨S128x40, .bf16⟩
  | .local _ .vmem, ⟨27, _⟩ => ⟨S1x40, .f32⟩
  | .local _ .vmem, ⟨28, _⟩ => ⟨S2048x40, .f32⟩
  | .local _ .vmem, ⟨29, _⟩ => ⟨S2048x40, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call0_cst : Ref sig .tc := ⟨.hbm, 87, rfl⟩
abbrev main_call0_v0 : Ref sig .tc := ⟨.hbm, 88, rfl⟩
abbrev main_call0_cst_0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_cst_1 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_v60 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S262144x512_S32768x512_0_0 : S262144x512.Slices ![0, 0] S32768x512
  bcast_S_S327680 : S_.BroadcastsInDim S327680 (![] : Fin 0 → Fin S327680.rank)
  bcast_S327680_S327680x1_0 : S327680.BroadcastsInDim S327680x1 (![0] : Fin 1 → Fin S327680x1.rank)
  bcast_S_S32768x512 : S_.BroadcastsInDim S32768x512 (![] : Fin 0 → Fin S32768x512.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  bitsLt_bf16_f32 : FTy.bits .bf16 < FTy.bits .f32
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S32768x256_S4096x256_0_0 : S32768x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S128_S1x128 : S128.ShapeCasts S1x128
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  shapeCasts_S1x40_S40 : S1x40.ShapeCasts S40
  broadcasts_S1x40_S2048x40 : S1x40.Broadcasts S2048x40
  inb_S2048x40_S2048x40_0_0 : ∀ a, (![0, 0] : Fin 2 → Nat) a + S2048x40.size a ≤ S2048x40.size a
  h_S2048x40 : 0 < S2048x40.numel
  reducesTo_S4096x40_S4096_d1 : S4096x40.ReducesTo [1] S4096
  h_S_ : 0 < S_.numel
  bcast_S4096x1_S4096x40_0_1 : S4096x1.BroadcastsInDim S4096x40 (![0, 1] : Fin 2 → Fin S4096x40.rank)
  gather_S262144x512_S327680x1_S327680x512_1_0_n_n_0_1_1512_wf : GatherDims.WF S262144x512 S327680x1 S327680x512 [1] [0] [] [0] [] 1 ![1, 512]
  scatter_S32768x512_S327680x1_S327680x512_1_0_0_1_wf : ScatterDims.WF S32768x512 S327680x1 S327680x512 [1] [0] [0] 1
  scatter_S32768_S327680x1_S327680_n_0_0_1_wf : ScatterDims.WF S32768 S327680x1 S327680 [] [0] [0] 1
  dot_S2048x512_S512x256_S2048x256_1_0_0_1_n_n_wf : DotDims.WF S2048x512 S512x256 S2048x256 [1] [0] [0] [1] [] []
  gather_S32768x256_S40960x1_S40960x256_1_0_n_n_0_1_1256_wf : GatherDims.WF S32768x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S2048x128_S128x40_S2048x40_1_0_0_1_n_n_wf : DotDims.WF S2048x128 S128x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .bf16 = 32 ∨ (Rect.block (s := S32768x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .bf16 = 32 ∨ (Rect.block (s := S32768x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S32768x256.size a
  hwx0_5 : ∀ i : grid0.Coords, EltTy.bits .f32 = 32 ∨ (Rect.block (s := S32768x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .bf16 = 32 ∨ (Rect.block (s := S4096x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .bf16 = 32 ∨ (Rect.block (s := S4096x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S4096x128.size a
  hwx1_5 : ∀ i : grid1.Coords, EltTy.bits .f32 = 32 ∨ (Rect.block (s := S4096x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S4096x128.size a
  hwx2_0 : ∀ i : grid2.Coords, EltTy.bits .bf16 = 32 ∨ (Rect.block (s := S4096x128) S2048x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S4096x128.size a
  hwx2_3 : ∀ i : grid2.Coords, EltTy.bits .f32 = 32 ∨ (Rect.block (s := S4096x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S4096x128.size a
  hwx3_0 : ∀ i : grid3.Coords, EltTy.bits .bf16 = 32 ∨ (Rect.block (s := S4096x128) S2048x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .bf16 = 32 ∨ (Rect.block (s := S128x40) S128x40.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x40.size a ≤ S4096x40.size a
  hwx3_3 : ∀ i : grid3.Coords, EltTy.bits .f32 = 32 ∨ (Rect.block (s := S4096x40) S2048x40.size (cc3_transform_3 i) (hinb3_3 i)).WholeWords (EltTy.packing .f32)

variable [Facts₀]

def gather_S262144x512_S327680x1_S327680x512_1_0_n_n_0_1_1512 : GatherDims S262144x512 S327680x1 S327680x512 where
  offsetDims := [1]
  collapsedSliceDims := [0]
  operandBatchingDims := []
  startIndicesBatchingDims := []
  startIndexMap := [0]
  indexVectorDim := 1
  sliceSizes := ![1, 512]
  wf := gather_S262144x512_S327680x1_S327680x512_1_0_n_n_0_1_1512_wf
def scatter_S32768x512_S327680x1_S327680x512_1_0_0_1 : ScatterDims S32768x512 S327680x1 S327680x512 where
  updateWindowDims := [1]
  insertedWindowDims := [0]
  scatterDimsToOperandDims := [0]
  indexVectorDim := 1
  wf := scatter_S32768x512_S327680x1_S327680x512_1_0_0_1_wf
def scatter_S32768_S327680x1_S327680_n_0_0_1 : ScatterDims S32768 S327680x1 S327680 where
  updateWindowDims := []
  insertedWindowDims := [0]
  scatterDimsToOperandDims := [0]
  indexVectorDim := 1
  wf := scatter_S32768_S327680x1_S327680_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S32768x256_S40960x1_S40960x256_1_0_n_n_0_1_1256 : GatherDims S32768x256 S40960x1 S40960x256 where
  offsetDims := [1]
  collapsedSliceDims := [0]
  operandBatchingDims := []
  startIndicesBatchingDims := []
  startIndexMap := [0]
  indexVectorDim := 1
  sliceSizes := ![1, 256]
  wf := gather_S32768x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x40_S2048x40_1_0_0_1_n_n : DotDims S2048x128 S128x40 S2048x40 where
  lhsContracting := [1]
  rhsContracting := [0]
  lhsNonContracting := [0]
  rhsNonContracting := [1]
  lhsBatch := []
  rhsBatch := []
  wf := dot_S2048x128_S128x40_S2048x40_1_0_0_1_n_n_wf

abbrev win0_0 : Pipeline.Window sig grid0 :=
  Pipeline.Window.ofSpec (Memref.whole main_v20) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S2048x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S262144x512 : Shape := ⟨2, ![262144, 512]⟩
abbrev S327680 : Shape := ⟨1, ![327680]⟩
abbrev S40960 : Shape := ⟨1, ![40960]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S32768x512 : Shape := ⟨2, ![32768, 512]⟩
abbrev S_ : Shape := ⟨0, ![]⟩
abbrev S327680x1 : Shape := ⟨2, ![327680, 1]⟩
abbrev S327680x512 : Shape := ⟨2, ![327680, 512]⟩
abbrev S32768 : Shape := ⟨1, ![32768]⟩
abbrev S32768x1 : Shape := ⟨2, ![32768, 1]⟩
abbrev S32768x256 : Shape := ⟨2, ![32768, 256]⟩
abbrev S1x256 : Shape := ⟨2, ![1, 256]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩
abbrev S4096x40 : Shape := ⟨2, ![4096, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S327680, .i32⟩
  | .hbm, ⟨2, _⟩ => ⟨S327680, .i32⟩
  | .hbm, ⟨3, _⟩ => ⟨S40960, .i32⟩
  | .hbm, ⟨4, _⟩ => ⟨S40960, .i32⟩
  | .hbm, ⟨5, _⟩ => ⟨S512x256, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x40, .f32⟩
  | .hbm, ⟨14, _⟩ => ⟨S40, .f32⟩
  | .hbm, ⟨15, _⟩ => ⟨S32768x512, .f32⟩
  | .hbm, ⟨16, _⟩ => ⟨S_, .i32⟩
  | .hbm, ⟨17, _⟩ => ⟨S327680, .i32⟩
  | .hbm, ⟨18, _⟩ => ⟨S327680, .i1⟩
  | .hbm, ⟨19, _⟩ => ⟨S_, .i32⟩
  | .hbm, ⟨20, _⟩ => ⟨S327680, .i32⟩
  | .hbm, ⟨21, _⟩ => ⟨S327680, .i32⟩
  | .hbm, ⟨22, _⟩ => ⟨S327680, .i32⟩
  | .hbm, ⟨23, _⟩ => ⟨S327680x1, .i32⟩
  | .hbm, ⟨24, _⟩ => ⟨S327680x512, .f32⟩
  | .hbm, ⟨25, _⟩ => ⟨S_, .f32⟩
  | .hbm, ⟨26, _⟩ => ⟨S32768x512, .f32⟩
  | .hbm, ⟨27, _⟩ => ⟨S327680x1, .i32⟩
  | .hbm, ⟨28, _⟩ => ⟨S32768x512, .f32⟩
  | .hbm, ⟨29, _⟩ => ⟨S_, .f32⟩
  | .hbm, ⟨30, _⟩ => ⟨S327680, .f32⟩
  | .hbm, ⟨31, _⟩ => ⟨S_, .f32⟩
  | .hbm, ⟨32, _⟩ => ⟨S32768, .f32⟩
  | .hbm, ⟨33, _⟩ => ⟨S327680x1, .i32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768x1, .f32⟩
  | .hbm, ⟨39, _⟩ => ⟨S32768x512, .f32⟩
  | .hbm, ⟨40, _⟩ => ⟨S32768x512, .f32⟩
  | .hbm, ⟨41, _⟩ => ⟨S32768x256, .f32⟩
  | .hbm, ⟨42, _⟩ => ⟨S1x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S_, .f32⟩
  | .hbm, ⟨48, _⟩ => ⟨S32768x256, .f32⟩
  | .hbm, ⟨49, _⟩ => ⟨S32768x256, .f32⟩
  | .hbm, ⟨50, _⟩ => ⟨S4096x256, .f32⟩
  | .hbm, ⟨51, _⟩ => ⟨S_, .i32⟩
  | .hbm, ⟨52, _⟩ => ⟨S40960, .i32⟩
  | .hbm, ⟨53, _⟩ => ⟨S40960, .i1⟩
  | .hbm, ⟨54, _⟩ => ⟨S_, .i32⟩
  | .hbm, ⟨55, _⟩ => ⟨S40960, .i32⟩
  | .hbm, ⟨56, _⟩ => ⟨S40960, .i32⟩
  | .hbm, ⟨57, _⟩ => ⟨S40960, .i32⟩
  | .hbm, ⟨58, _⟩ => ⟨S40960x1, .i32⟩
  | .hbm, ⟨59, _⟩ => ⟨S40960x256, .f32⟩
  | .hbm, ⟨60, _⟩ => ⟨S_, .f32⟩
  | .hbm, ⟨61, _⟩ => ⟨S4096x256, .f32⟩
  | .hbm, ⟨62, _⟩ => ⟨S40960x1, .i32⟩
  | .hbm, ⟨63, _⟩ => ⟨S4096x256, .f32⟩
  | .hbm, ⟨64, _⟩ => ⟨S_, .f32⟩
  | .hbm, ⟨65, _⟩ => ⟨S40960, .f32⟩
  | .hbm, ⟨66, _⟩ => ⟨S_, .f32⟩
  | .hbm, ⟨67, _⟩ => ⟨S4096, .f32⟩
  | .hbm, ⟨68, _⟩ => ⟨S40960x1, .i32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x256, .f32⟩
  | .hbm, ⟨75, _⟩ => ⟨S4096x256, .f32⟩
  | .hbm, ⟨76, _⟩ => ⟨S4096x128, .f32⟩
  | .hbm, ⟨77, _⟩ => ⟨S1x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S1x128, .f32⟩
  | .hbm, ⟨84, _⟩ => ⟨S4096x128, .f32⟩
  | .hbm, ⟨85, _⟩ => ⟨S4096x128, .f32⟩
  | .hbm, ⟨86, _⟩ => ⟨S_, .f32⟩
  | .hbm, ⟨87, _⟩ => ⟨S4096x128, .f32⟩
  | .hbm, ⟨88, _⟩ => ⟨S4096x128, .f32⟩
  | .hbm, ⟨89, _⟩ => ⟨S4096x40, .f32⟩
  | .hbm, ⟨90, _⟩ => ⟨S1x40, .f32⟩
  | .hbm, ⟨91, _⟩ => ⟨S4096x40, .f32⟩
  | .hbm, ⟨92, _⟩ => ⟨S4096x40, .f32⟩
  | .hbm, ⟨93, _⟩ => ⟨S_, .f32⟩
  | .hbm, ⟨94, _⟩ => ⟨S4096x40, .f32⟩
  | .hbm, ⟨95, _⟩ => ⟨S4096x40, .f32⟩
  | .hbm, ⟨96, _⟩ => ⟨S_, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S4096, .f32⟩
  | .hbm, ⟨101, _⟩ => ⟨S4096x1, .f32⟩
  | .hbm, ⟨102, _⟩ => ⟨S4096x40, .f32⟩
  | .hbm, ⟨103, _⟩ => ⟨S4096x40, .f32⟩
  | .hbm, ⟨104, _⟩ => ⟨S4096x40, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x1, .f32⟩
  | .hbm, ⟨109, _⟩ => ⟨S4096x40, .f32⟩
  | .hbm, ⟨110, _⟩ => ⟨S4096x40, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_cst : Ref sig .tc := ⟨.hbm, 47, rfl⟩
abbrev main_call0_v0 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_cst : Ref sig .tc := ⟨.hbm, 86, rfl⟩
abbrev main_call1_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call2_cst : Ref sig .tc := ⟨.hbm, 93, rfl⟩
abbrev main_call2_v0 : Ref sig .tc := ⟨.hbm, 94, rfl⟩
abbrev main_v62 : Ref sig .tc := ⟨.hbm, 95, rfl⟩
abbrev main_call3_cst : Ref sig .tc := ⟨.hbm, 96, rfl⟩
abbrev main_call3_v0 : Ref sig .tc := ⟨.hbm, 97, rfl⟩
abbrev main_call3_cst_0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_cst_1 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_v63 : Ref sig .tc := ⟨.hbm, 110, rfl⟩

abbrev nD : Nat := 1
abbrev τ : Topo := Topo.v7x

variable {F : FTy → Type} [FloatOps F]

class Facts₀ : Prop where
  slices_S262144x512_S32768x512_0_0 : S262144x512.Slices ![0, 0] S32768x512
  bcast_S_S327680 : S_.BroadcastsInDim S327680 (![] : Fin 0 → Fin S327680.rank)
  bcast_S327680_S327680x1_0 : S327680.BroadcastsInDim S327680x1 (![0] : Fin 1 → Fin S327680x1.rank)
  bcast_S_S32768x512 : S_.BroadcastsInDim S32768x512 (![] : Fin 0 → Fin S32768x512.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  slices_S32768x256_S4096x256_0_0 : S32768x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  bcast_S_S4096x40 : S_.BroadcastsInDim S4096x40 (![] : Fin 0 → Fin S4096x40.rank)
  reducesTo_S4096x40_S4096_d1 : S4096x40.ReducesTo [1] S4096
  h_S_ : 0 < S_.numel
  bcast_S4096x1_S4096x40_0_1 : S4096x1.BroadcastsInDim S4096x40 (![0, 1] : Fin 2 → Fin S4096x40.rank)
  gather_S262144x512_S327680x1_S327680x512_1_0_n_n_0_1_1512_wf : GatherDims.WF S262144x512 S327680x1 S327680x512 [1] [0] [] [0] [] 1 ![1, 512]
  scatter_S32768x512_S327680x1_S327680x512_1_0_0_1_wf : ScatterDims.WF S32768x512 S327680x1 S327680x512 [1] [0] [0] 1
  scatter_S32768_S327680x1_S327680_n_0_0_1_wf : ScatterDims.WF S32768 S327680x1 S327680 [] [0] [0] 1
  dot_S32768x512_S512x256_S32768x256_1_0_0_1_n_n_wf : DotDims.WF S32768x512 S512x256 S32768x256 [1] [0] [0] [1] [] []
  gather_S32768x256_S40960x1_S40960x256_1_0_n_n_0_1_1256_wf : GatherDims.WF S32768x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S4096x128_S128x40_S4096x40_1_0_0_1_n_n_wf : DotDims.WF S4096x128 S128x40 S4096x40 [1] [0] [0] [1] [] []

variable [Facts₀]

def gather_S262144x512_S327680x1_S327680x512_1_0_n_n_0_1_1512 : GatherDims S262144x512 S327680x1 S327680x512 where
  offsetDims := [1]
  collapsedSliceDims := [0]
  operandBatchingDims := []
  startIndicesBatchingDims := []
  startIndexMap := [0]
  indexVectorDim := 1
  sliceSizes := ![1, 512]
  wf := gather_S262144x512_S327680x1_S327680x512_1_0_n_n_0_1_1512_wf
def scatter_S32768x512_S327680x1_S327680x512_1_0_0_1 : ScatterDims S32768x512 S327680x1 S327680x512 where
  updateWindowDims := [1]
  insertedWindowDims := [0]
  scatterDimsToOperandDims := [0]
  indexVectorDim := 1
  wf := scatter_S32768x512_S327680x1_S327680x512_1_0_0_1_wf
def scatter_S32768_S327680x1_S327680_n_0_0_1 : ScatterDims S32768 S327680x1 S327680 where
  updateWindowDims := []
  insertedWindowDims := [0]
  scatterDimsToOperandDims := [0]
  indexVectorDim := 1
  wf := scatter_S32768_S327680x1_S327680_n_0_0_1_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def gather_S32768x256_S40960x1_S40960x256_1_0_n_n_0_1_1256 : GatherDims S32768x256 S40960x1 S40960x256 where
  offsetDims := [1]
  collapsedSliceDims := [0]
  operandBatchingDims := []
  startIndicesBatchingDims := []
  startIndexMap := [0]
  indexVectorDim := 1
  sliceSizes := ![1, 256]
  wf := gather_S32768x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x40_S4096x40_1_0_0_1_n_n : DotDims S4096x128 S128x40 S4096x40 where
  lhsContracting := [1]
  rhsContracting := [0]
  lhsNonContracting := [0]
  rhsNonContracting := [1]
  lhsBatch := []
  rhsBatch := []
  wf := dot_S4096x128_S128x40_S4096x40_1_0_0_1_n_n_wf

class Facts : Prop extends Facts₀ where

variable [Facts]
-- ==== Proof.KernelRun.lean ====
/-
  The idealized kernel's run with its RESULT named. The program is four row-blocked linear layers among stretches of
  host operations. Its buffers at each boundary are a fold from the launch memory: a host stretch applies its
  operations, a layer's region replaces its output array by what the region's write-backs leave. Every weakly fair
  execution terminates with every buffer that outlives the run at the last boundary's contents; read at the result
  buffer this names the result as the last boundary's value there, and read at an argument it is the launch value,
  since nothing writes an argument.
-/
import proofs.«161704_j29746943492301_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run_out : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c)⟩)

end Cert.KernelIdeal.Out

end
-- ==== Proof.LayerSpec.lean ====
/-
  The layers as whole-array functions over the extended reals. A linear layer sends a matrix `a` [M, K], a weight
  matrix `w` [K, N] and a bias row `b` [1, N] to the [M, N] matrix whose entry (p, q) is Σₖ a[p,k]·w[k,q] + b[q]; an
  aggregation layer adds a second product: (Σₖ a[p,k]·wl[k,q] + Σₖ x[p,k]·wr[k,q]) + b[q]. The rectifier takes the
  maximum with the extended real the zero word encodes. Entry (p, q) depends on row p of the left operands only,
  which is why a layer computed block of rows by block of rows is the layer of the whole matrices.
-/
import Idealize.ShloMosaic.Lib.ValueIdx

noncomputable section

namespace Cert.Layer

open Idealize.ShloMosaic Idealize.ShloMosaic.ValueIdx

/-- Entry (p, q) of `(a·wl + x·wr) + b`. -/
def sageAt {M K N : ℕ} (a x : (⟨2, ![M, K]⟩ : Shape).Idx → EReal) (wl wr : (⟨2, ![K, N]⟩ : Shape).Idx → EReal)
    (b : (⟨2, ![1, N]⟩ : Shape).Idx → EReal) (p : Fin M) (q : Fin N) : EReal :=
  ((∑ k : Fin K, a (ix2 p k) * wl (ix2 k q)) + ∑ k : Fin K, x (ix2 p k) * wr (ix2 k q)) + b (ix2 (0 : Fin 1) q)

/-- The aggregation layer `(a·wl + x·wr) + b`, the bias row added to every row. -/
def sage {M K N : ℕ} (a x : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => sageAt a x wl wr b (i 0) (i 1)

/-- Entry (p, q) of `a·w + b`. -/
def linAt {M K N : ℕ} (a : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, a (ix2 p k) * w (ix2 k q)) + b (ix2 (0 : Fin 1) q)

/-- The linear layer `a·w + b`. -/
def lin {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => linAt a w b (i 0) (i 1)

/-- The rectifier: the maximum with zero, entry by entry. -/
def relu {s : Shape} (z : s.Idx → EReal) : s.Idx → EReal := fun i => max (z i) (Ideal.ofBits .f32 0x00000000#32)

theorem sage_apply {M K N : ℕ} (a x : (⟨2, ![M, K]⟩ : Shape).Idx → EReal) (wl wr : (⟨2, ![K, N]⟩ : Shape).Idx → EReal)
    (b : (⟨2, ![1, N]⟩ : Shape).Idx → EReal) (p : Fin M) (q : Fin N) : sage a x wl wr b (ix2 p q) = sageAt a x wl wr b p q := rfl

theorem lin_apply {M K N : ℕ} (a : (⟨2, ![M, K]⟩ : Shape).Idx → EReal) (w : (⟨2, ![K, N]⟩ : Shape).Idx → EReal)
    (b : (⟨2, ![1, N]⟩ : Shape).Idx → EReal) (p : Fin M) (q : Fin N) : lin a w b (ix2 p q) = linAt a w b p q := rfl

theorem relu_apply {s : Shape} (z : s.Idx → EReal) (i : s.Idx) : relu z i = max (z i) (Ideal.ofBits .f32 0x00000000#32) := rfl

/-- The bias added before the second product instead of after it: the same entry, by commutativity and associativity
    of addition (no finiteness needed on the extended reals). -/
theorem sageAt_bias_first {M K N : ℕ} (a x : (⟨2, ![M, K]⟩ : Shape).Idx → EReal) (wl wr : (⟨2, ![K, N]⟩ : Shape).Idx → EReal)
    (b : (⟨2, ![1, N]⟩ : Shape).Idx → EReal) (p : Fin M) (q : Fin N) :
    sageAt a x wl wr b p q
      = ((∑ k : Fin K, a (ix2 p k) * wl (ix2 k q)) + b (ix2 (0 : Fin 1) q)) + ∑ k : Fin K, x (ix2 p k) * wr (ix2 k q) := by
  unfold sageAt
  exact add_right_comm _ _ _

end Cert.Layer

end
-- ==== Proof.RefLayers.lean ====
/-
  The idealized reference, layer by layer, as the same whole-array functions. Each `dot_general` with one contracted
  axis is the sum over that axis; the bias vector [n], broadcast to a row [1, n] and then down the rows, reads at
  (p, q) its entry q; `relu` is the maximum with the zero word's value. The reference adds the bias BEFORE the second
  product — ((a·wl) + b) + x·wr — where the layer function adds it after — (a·wl + x·wr) + b: the two agree by
  commutativity and associativity of addition on the extended reals, which hold with no finiteness assumption.
  Between the layers the reference applies its gather / segment-sum / mean chain and its row slice to the previous
  layer's result; those are named here as functions of that result and never opened.
-/
import proofs.«161704_j29746943492301_1_alg».proof.Proof.RefRead
import proofs.«161704_j29746943492301_1_alg».proof.Proof.LayerSpec

set_option maxRecDepth 65536

noncomputable section

namespace Cert.ReferenceIdeal.Layers

open Cert.ReferenceIdeal Cert.ReferenceIdeal.Gen Cert.ReferenceIdeal.ReadP Cert.Layer Idealize.ShloMosaic Idealize.ShloMosaic.ValueIdx

/-- A bias vector `[n]` as the row `[1, n]`. -/
def rowOf {n : ℕ} (b : (⟨1, ![n]⟩ : Shape).Idx → EReal) : (⟨2, ![1, n]⟩ : Shape).Idx → EReal := fun i => b (ix1 (i 1))

theorem rowOf_apply {n : ℕ} (b : (⟨1, ![n]⟩ : Shape).Idx → EReal) (u : Fin 1) (q : Fin n) : rowOf b (ix2 u q) = b (ix1 q) := rfl

/-! ## The chains between the layers, as functions of the previous layer's result -/

/-- Layer 2's aggregated operand from layer 1's result `h`: rows of `h` gathered at the source indices, summed per
    destination, divided by the clamped counts. -/
def agg2 {F : FTy → Type} [FloatOps F] (h : (⟨S32768x256, .f32⟩ : BufTy).Contents (Elt F)) (x3 x4 : (⟨S40960, .i32⟩ : BufTy).Contents (Elt F)) : (⟨S4096x256, .f32⟩ : BufTy).Contents (Elt F) :=
  Host.divf
    (Host.scatterAdd scatter_S4096x256_S40960x1_S40960x256_1_0_0_1 (val_main_v35 (F := F)) (val_main_v36 (F := F) x4)
      (Host.gather gather_S32768x256_S40960x1_S40960x256_1_0_n_n_0_1_1256 h (val_main_v33 (F := F) x3)))
    (val_main_v45 (F := F) x4)

/-- The first 4096 rows of layer 1's result. -/
def head2 {F : FTy → Type} [FloatOps F] (h : (⟨S32768x256, .f32⟩ : BufTy).Contents (Elt F)) : (⟨S4096x256, .f32⟩ : BufTy).Contents (Elt F) :=
  extractStridedSlice S4096x256 ![0, 0] h slices_S32768x256_S4096x256_0_0

theorem v46_eq {F : FTy → Type} [FloatOps F] (x0 : (⟨S262144x512, .f32⟩ : BufTy).Contents (Elt F)) (x1 x2 : (⟨S327680, .i32⟩ : BufTy).Contents (Elt F)) (x3 x4 : (⟨S40960, .i32⟩ : BufTy).Contents (Elt F))
    (x5 x6 : (⟨S512x256, .f32⟩ : BufTy).Contents (Elt F)) (x7 : (⟨S256, .f32⟩ : BufTy).Contents (Elt F)) :
    val_main_v46 (F := F) x0 x1 x2 x3 x4 x5 x6 x7 = agg2 (val_main_v26 (F := F) x0 x1 x2 x5 x6 x7) x3 x4 := by
  unfold val_main_v46 val_main_v37 val_main_v34 agg2; rfl

theorem v27_eq {F : FTy → Type} [FloatOps F] (x0 : (⟨S262144x512, .f32⟩ : BufTy).Contents (Elt F)) (x1 x2 : (⟨S327680, .i32⟩ : BufTy).Contents (Elt F))
    (x5 x6 : (⟨S512x256, .f32⟩ : BufTy).Contents (Elt F)) (x7 : (⟨S256, .f32⟩ : BufTy).Contents (Elt F)) :
    val_main_v27 (F := F) x0 x1 x2 x5 x6 x7 = head2 (val_main_v26 (F := F) x0 x1 x2 x5 x6 x7) := by
  unfold val_main_v27 head2; rfl

/-- A matrix minus its rows' maxima (the maximum taken from minus infinity, as the programs spell it). -/
def lsmShift {F : FTy → Type} [FloatOps F] (h : (⟨S4096x40, .f32⟩ : BufTy).Contents (Elt F)) : (⟨S4096x40, .f32⟩ : BufTy).Contents (Elt F) :=
  subf h (broadcastInDim S4096x40 ![0, 1] bcast_S4096x1_S4096x40_0_1 (broadcastInDim S4096x1 ![0] bcast_S4096_S4096x1_0
    (maximumf (broadcastInDim S4096 ![] bcast_S_S4096 (constant S_ .f32 0xFF800000#32))
      (Host.reduce FloatOps.maximumf h (constant S_ .f32 0xFF800000#32) reducesTo_S4096x40_S4096_d1 h_S_))))

/-- The row-wise log-softmax both programs end with, as one function of its operand: the shifted matrix minus the
    logarithm of the row sums of its exponential. Never opened: both programs apply it to equal operands. -/
def lsm {F : FTy → Type} [FloatOps F] (h : (⟨S4096x40, .f32⟩ : BufTy).Contents (Elt F)) : (⟨S4096x40, .f32⟩ : BufTy).Contents (Elt F) :=
  subf (lsmShift h) (broadcastInDim S4096x40 ![0, 1] bcast_S4096x1_S4096x40_0_1 (Host.log (broadcastInDim S4096x1 ![0] bcast_S4096_S4096x1_0
    (Host.reduceAdd (Host.exp (lsmShift h)) (constant S_ .f32 0x00000000#32) reducesTo_S4096x40_S4096_d1 h_S_))))

theorem v63_eq {F : FTy → Type} [FloatOps F] (x0 : (⟨S262144x512, .f32⟩ : BufTy).Contents (Elt F)) (x1 x2 : (⟨S327680, .i32⟩ : BufTy).Contents (Elt F)) (x3 x4 : (⟨S40960, .i32⟩ : BufTy).Contents (Elt F)) (x5 x6 : (⟨S512x256, .f32⟩ : BufTy).Contents (Elt F)) (x7 : (⟨S256, .f32⟩ : BufTy).Contents (Elt F)) (x8 x9 : (⟨S256x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x40, .f32⟩ : BufTy).Contents (Elt F)) (x14 : (⟨S40, .f32⟩ : BufTy).Contents (Elt F)) :
    val_main_v63 (F := F) x0 x1 x2 x3 x4 x5 x6 x7 x8 x9 x10 x11 x12 x13 x14 = lsm (val_main_v62 (F := F) x0 x1 x2 x3 x4 x5 x6 x7 x8 x9 x10 x11 x12 x13 x14) := by
  unfold val_main_v63 val_main_call3_v10 val_main_call3_v9 val_main_call3_v8 val_main_call3_v7 val_main_call3_cst_1 val_main_call3_v6
    val_main_call3_v5 val_main_call3_v4 val_main_call3_v3 val_main_call3_v2 val_main_call3_v1 val_main_call3_cst_0 val_main_call3_v0
    val_main_call3_cst lsm lsmShift
  rfl

/-! ## The four layers -/

/-- Layer 1: `relu ((agg·W_l1 + x[:N1]·W_r1) + b1)`. -/
theorem layer1 (x0 : (⟨S262144x512, .f32⟩ : BufTy).Contents (Elt Ideal)) (x1 x2 : (⟨S327680, .i32⟩ : BufTy).Contents (Elt Ideal)) (x5 x6 : (⟨S512x256, .f32⟩ : BufTy).Contents (Elt Ideal)) (x7 : (⟨S256, .f32⟩ : BufTy).Contents (Elt Ideal)) :
    val_main_v26 (F := Ideal) x0 x1 x2 x5 x6 x7
      = relu (sage (val_main_v19 (F := Ideal) x0 x1 x2) (val_main_v0 (F := Ideal) x0) x5 x6 (rowOf x7)) := by
  funext i
  obtain ⟨p, q, rfl⟩ : ∃ (p : Fin 32768) (q : Fin 256), i = ix2 p q := ⟨i 0, i 1, eq_ix2 i⟩
  rw [val_main_v26_apply, val_main_v25_apply, val_main_v23_apply, val_main_v20_apply, val_main_v24_apply, val_main_v22_apply,
    val_main_v21_apply, val_main_call0_v0_apply, val_main_call0_cst_apply]
  have e1 : ∀ k, lidx_main_v20 (ix2 p q) k = ix2 p k := (fun k => funext fun a => Fin.ext (by match a with | ⟨0, _⟩ => rfl | ⟨1, _⟩ => rfl))
  have e2 : ∀ k, ridx_main_v20 (ix2 p q) k = ix2 k q := (fun k => funext fun a => Fin.ext (by match a with | ⟨0, _⟩ => rfl | ⟨1, _⟩ => rfl))
  have e3 : ∀ k, lidx_main_v24 (ix2 p q) k = ix2 p k := (fun k => funext fun a => Fin.ext (by match a with | ⟨0, _⟩ => rfl | ⟨1, _⟩ => rfl))
  have e4 : ∀ k, ridx_main_v24 (ix2 p q) k = ix2 k q := (fun k => funext fun a => Fin.ext (by match a with | ⟨0, _⟩ => rfl | ⟨1, _⟩ => rfl))
  have e5 : idx_main_v21 (idx_main_v22 (ix2 p q)) = ix1 q := funext fun a => Fin.ext (by match a with | ⟨0, _⟩ => rfl)
  simp only [e1, e2, e3, e4, e5, Ideal.addf_def, Ideal.maximumf_def, Ideal.ofBits_def]
  rw [relu_apply, sage_apply, sageAt_bias_first, rowOf_apply]

/-- Layer 2: `(agg·W_l2 + h[:N2]·W_r2) + b2`, the operands the chains of layer 1's result. -/
theorem layer2 (x0 : (⟨S262144x512, .f32⟩ : BufTy).Contents (Elt Ideal)) (x1 x2 : (⟨S327680, .i32⟩ : BufTy).Contents (Elt Ideal)) (x3 x4 : (⟨S40960, .i32⟩ : BufTy).Contents (Elt Ideal)) (x5 x6 : (⟨S512x256, .f32⟩ : BufTy).Contents (Elt Ideal)) (x7 : (⟨S256, .f32⟩ : BufTy).Contents (Elt Ideal)) (x8 x9 : (⟨S256x128, .f32⟩ : BufTy).Contents (Elt Ideal)) (x10 : (⟨S128, .f32⟩ : BufTy).Contents (Elt Ideal)) :
    val_main_v52 (F := Ideal) x0 x1 x2 x3 x4 x5 x6 x7 x8 x9 x10
      = sage (agg2 (F := Ideal) (val_main_v26 (F := Ideal) x0 x1 x2 x5 x6 x7) x3 x4) (head2 (F := Ideal) (val_main_v26 (F := Ideal) x0 x1 x2 x5 x6 x7)) x8 x9 (rowOf x10) := by
  rw [← v46_eq, ← v27_eq]
  funext i
  obtain ⟨p, q, rfl⟩ : ∃ (p : Fin 4096) (q : Fin 128), i = ix2 p q := ⟨i 0, i 1, eq_ix2 i⟩
  rw [val_main_v52_apply, val_main_v50_apply, val_main_v47_apply, val_main_v51_apply, val_main_v49_apply, val_main_v48_apply]
  have e1 : ∀ k, lidx_main_v47 (ix2 p q) k = ix2 p k := (fun k => funext fun a => Fin.ext (by match a with | ⟨0, _⟩ => rfl | ⟨1, _⟩ => rfl))
  have e2 : ∀ k, ridx_main_v47 (ix2 p q) k = ix2 k q := (fun k => funext fun a => Fin.ext (by match a with | ⟨0, _⟩ => rfl | ⟨1, _⟩ => rfl))
  have e3 : ∀ k, lidx_main_v51 (ix2 p q) k = ix2 p k := (fun k => funext fun a => Fin.ext (by match a with | ⟨0, _⟩ => rfl | ⟨1, _⟩ => rfl))
  have e4 : ∀ k, ridx_main_v51 (ix2 p q) k = ix2 k q := (fun k => funext fun a => Fin.ext (by match a with | ⟨0, _⟩ => rfl | ⟨1, _⟩ => rfl))
  have e5 : idx_main_v48 (idx_main_v49 (ix2 p q)) = ix1 q := funext fun a => Fin.ext (by match a with | ⟨0, _⟩ => rfl)
  simp only [e1, e2, e3, e4, e5, Ideal.addf_def]
  rw [sage_apply, sageAt_bias_first, rowOf_apply]

/-- Layer 3: `relu (h·Wc1 + bc1)`. -/
theorem layer3 (x0 : (⟨S262144x512, .f32⟩ : BufTy).Contents (Elt Ideal)) (x1 x2 : (⟨S327680, .i32⟩ : BufTy).Contents (Elt Ideal)) (x3 x4 : (⟨S40960, .i32⟩ : BufTy).Contents (Elt Ideal)) (x5 x6 : (⟨S512x256, .f32⟩ : BufTy).Contents (Elt Ideal)) (x7 : (⟨S256, .f32⟩ : BufTy).Contents (Elt Ideal)) (x8 x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v57 (F := Ideal) x0 x1 x2 x3 x4 x5 x6 x7 x8 x9 x10 x11 x12
      = relu (lin (val_main_v52 (F := Ideal) x0 x1 x2 x3 x4 x5 x6 x7 x8 x9 x10) x11 (rowOf x12)) := by
  funext i
  obtain ⟨p, q, rfl⟩ : ∃ (p : Fin 4096) (q : Fin 128), i = ix2 p q := ⟨i 0, i 1, eq_ix2 i⟩
  rw [val_main_v57_apply, val_main_v56_apply, val_main_v53_apply, val_main_v55_apply, val_main_v54_apply, val_main_call1_v0_apply,
    val_main_call1_cst_apply]
  have e1 : ∀ k, lidx_main_v53 (ix2 p q) k = ix2 p k := (fun k => funext fun a => Fin.ext (by match a with | ⟨0, _⟩ => rfl | ⟨1, _⟩ => rfl))
  have e2 : ∀ k, ridx_main_v53 (ix2 p q) k = ix2 k q := (fun k => funext fun a => Fin.ext (by match a with | ⟨0, _⟩ => rfl | ⟨1, _⟩ => rfl))
  have e5 : idx_main_v54 (idx_main_v55 (ix2 p q)) = ix1 q := funext fun a => Fin.ext (by match a with | ⟨0, _⟩ => rfl)
  simp only [e1, e2, e5, Ideal.addf_def, Ideal.maximumf_def, Ideal.ofBits_def]
  rw [relu_apply, lin_apply]
  unfold linAt
  rw [rowOf_apply]

/-- Layer 4: `relu (h·Wc2 + bc2)`. -/
theorem layer4 (x0 : (⟨S262144x512, .f32⟩ : BufTy).Contents (Elt Ideal)) (x1 x2 : (⟨S327680, .i32⟩ : BufTy).Contents (Elt Ideal)) (x3 x4 : (⟨S40960, .i32⟩ : BufTy).Contents (Elt Ideal)) (x5 x6 : (⟨S512x256, .f32⟩ : BufTy).Contents (Elt Ideal)) (x7 : (⟨S256, .f32⟩ : BufTy).Contents (Elt Ideal)) (x8 x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x40, .f32⟩ : BufTy).Contents (Elt Ideal)) (x14 : (⟨S40, .f32⟩ : BufTy).Contents (Elt Ideal)) :
    val_main_v62 (F := Ideal) x0 x1 x2 x3 x4 x5 x6 x7 x8 x9 x10 x11 x12 x13 x14
      = relu (lin (val_main_v57 (F := Ideal) x0 x1 x2 x3 x4 x5 x6 x7 x8 x9 x10 x11 x12) x13 (rowOf x14)) := by
  funext i
  obtain ⟨p, q, rfl⟩ : ∃ (p : Fin 4096) (q : Fin 40), i = ix2 p q := ⟨i 0, i 1, eq_ix2 i⟩
  rw [val_main_v62_apply, val_main_v61_apply, val_main_v58_apply, val_main_v60_apply, val_main_v59_apply, val_main_call2_v0_apply,
    val_main_call2_cst_apply]
  have e1 : ∀ k, lidx_main_v58 (ix2 p q) k = ix2 p k := (fun k => funext fun a => Fin.ext (by match a with | ⟨0, _⟩ => rfl | ⟨1, _⟩ => rfl))
  have e2 : ∀ k, ridx_main_v58 (ix2 p q) k = ix2 k q := (fun k => funext fun a => Fin.ext (by match a with | ⟨0, _⟩ => rfl | ⟨1, _⟩ => rfl))
  have e5 : idx_main_v59 (idx_main_v60 (ix2 p q)) = ix1 q := funext fun a => Fin.ext (by match a with | ⟨0, _⟩ => rfl)
  simp only [e1, e2, e5, Ideal.addf_def, Ideal.maximumf_def, Ideal.ofBits_def]
  rw [relu_apply, lin_apply]
  unfold linAt
  rw [rowOf_apply]

end Cert.ReferenceIdeal.Layers

end
-- ==== Proof.KernelChain.lean ====
/-
  The idealized kernel's host stretches, each read at the buffers the next layer's region takes, from ANY contents `U`
  of the buffers the stretch is entered with. Before layer 1: the gather / segment-sum / mean chain of the arguments
  (the very operations the reference applies, so it is named by the reference's own stage and never opened), the
  first 32768 rows of `x`, the two weight matrices (a change of float format is the identity on extended reals) and
  the bias vector as a row. Before layer 2 the same chain and row slice applied to layer 1's result; before layers 3
  and 4 the previous layer's result, the weights and the bias row; after layer 4 the row-wise log-softmax. A stretch
  writes no argument, so an argument read after it is the argument read before it.
-/
import proofs.«161704_j29746943492301_1_alg».proof.Proof.Gen.KernelIdeal.Frame
import proofs.«161704_j29746943492301_1_alg».proof.Proof.RefLayers
import Idealize.ShloMosaic.Lib.ValueLayout
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Idealize.ShloMosaic.ValueIdx Idealize.SL.Sem

/-- A typed reference's two transports cancel. -/
theorem ofBuf_toBuf {Val : EltTy → Type} {T : BufTy} (x : TRef sig T) (v : T.Contents Val) : x.ofBuf (x.toBuf v) = v := by
  obtain ⟨r, h, h2, h3⟩ := x; subst h; rfl

/-! At a literal reference the transport is the identity: the reference's type in the signature IS the value's. -/
theorem toBuf_v60 {Val : EltTy → Type} (h1 h2 h3) (v : (⟨S4096x40, .f32⟩ : BufTy).Contents Val) : (TRef.of (sig := sig) main_v60 h1 h2 h3).toBuf v = v := rfl
theorem ofBuf_v59 {Val : EltTy → Type} (h1 h2 h3) (v : (⟨S4096x40, .f32⟩ : BufTy).Contents Val) : (TRef.of (sig := sig) (T := ⟨S4096x40, .f32⟩) main_v59 h1 h2 h3).ofBuf v = v := rfl

/-- A narrowing change of float format is the identity on extended reals. -/
theorem truncf_id {s : Shape} {φ ψ : FTy} (a : FVec Ideal s φ) (h : ψ.bits < φ.bits) : (truncf ψ a h : s.Idx → EReal) = a := rfl

/-! ## Before layer 1 -/

set_option maxHeartbeats 8000000 in
/-- The aggregated operand: the reference's own chain of the arguments. -/
theorem s0_v20 (U : Valuation τ sig (Elt Ideal)) :
    (StableHlo.after hostOps0 U (Proc.devRef .tc main_v20) : S32768x512.Idx → EReal)
      = Cert.ReferenceIdeal.ReadP.val_main_v19 (F := Ideal) (U (Proc.devRef .tc main_arg0)) (U (Proc.devRef .tc main_arg1)) (U (Proc.devRef .tc main_arg2)) := by
  after_results_simp
  simp only [truncf_id, Cert.ReferenceIdeal.ReadP.val_main_v19, Cert.ReferenceIdeal.ReadP.val_main_v10, Cert.ReferenceIdeal.ReadP.val_main_v18, Cert.ReferenceIdeal.ReadP.val_main_v17, Cert.ReferenceIdeal.ReadP.val_main_v16, Cert.ReferenceIdeal.ReadP.val_main_v14, Cert.ReferenceIdeal.ReadP.val_main_v15, Cert.ReferenceIdeal.ReadP.val_main_v13, Cert.ReferenceIdeal.ReadP.val_main_v12, Cert.ReferenceIdeal.ReadP.val_main_v11, Cert.ReferenceIdeal.ReadP.val_main_v9, Cert.ReferenceIdeal.ReadP.val_main_v8, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_v2, Cert.ReferenceIdeal.ReadP.val_main_v1, Cert.ReferenceIdeal.ReadP.val_main_c, Cert.ReferenceIdeal.ReadP.val_main_c_0, Cert.ReferenceIdeal.ReadP.val_main_cst, Cert.ReferenceIdeal.ReadP.val_main_cst_1, Cert.ReferenceIdeal.ReadP.val_main_cst_2, Cert.ReferenceIdeal.ReadP.val_main_cst_3]
  rfl

set_option maxHeartbeats 8000000 in
/-- The first 32768 rows of `x`. -/
theorem s0_v21 (U : Valuation τ sig (Elt Ideal)) :
    (StableHlo.after hostOps0 U (Proc.devRef .tc main_v21) : S32768x512.Idx → EReal) = Cert.ReferenceIdeal.ReadP.val_main_v0 (F := Ideal) (U (Proc.devRef .tc main_arg0)) := by
  after_results_simp
  simp only [truncf_id, Cert.ReferenceIdeal.ReadP.val_main_v0]

/-- A change of float format is the identity on extended reals. -/
theorem s0_v22 (U : Valuation τ sig (Elt Ideal)) :
    (StableHlo.after hostOps0 U (Proc.devRef .tc main_v22) : S512x256.Idx → EReal) = (U (Proc.devRef .tc main_arg5) : S512x256.Idx → EReal) := by
  after_results_simp
  rfl

/-- A change of float format is the identity on extended reals. -/
theorem s0_v23 (U : Valuation τ sig (Elt Ideal)) :
    (StableHlo.after hostOps0 U (Proc.devRef .tc main_v23) : S512x256.Idx → EReal) = (U (Proc.devRef .tc main_arg6) : S512x256.Idx → EReal) := by
  after_results_simp
  rfl

/-- The bias vector reshaped to a row reads, at column `q`, its entry `q`. -/
theorem s0_v24 (U : Valuation τ sig (Elt Ideal)) :
    (StableHlo.after hostOps0 U (Proc.devRef .tc main_v24) : S1x256.Idx → EReal) = Cert.ReferenceIdeal.Layers.rowOf (U (Proc.devRef .tc main_arg7) : (⟨1, ![256]⟩ : Shape).Idx → EReal) := by
  after_results_simp
  generalize (U (Proc.devRef .tc main_arg7) : (⟨1, ![256]⟩ : Shape).Idx → EReal) = x
  funext i
  obtain ⟨u, q, rfl⟩ : ∃ (u : Fin 1) (q : Fin 256), i = ix2 u q := ⟨i 0, i 1, eq_ix2 i⟩
  exact shapeCast_a_1a_apply x _ u q

/-! ## Before layer 2 -/

set_option maxHeartbeats 8000000 in
/-- The aggregated operand: the reference's chain applied to layer 1's result. -/
theorem s1_v46 (U : Valuation τ sig (Elt Ideal)) :
    (StableHlo.after hostOps1 U (Proc.devRef .tc main_v46) : S4096x256.Idx → EReal)
      = Cert.ReferenceIdeal.Layers.agg2 (F := Ideal) (U (Proc.devRef .tc main_v25)) (U (Proc.devRef .tc main_arg3)) (U (Proc.devRef .tc main_arg4)) := by
  after_results_simp
  simp only [truncf_id, Cert.ReferenceIdeal.Layers.agg2, Cert.ReferenceIdeal.ReadP.val_main_v35, Cert.ReferenceIdeal.ReadP.val_main_v36, Cert.ReferenceIdeal.ReadP.val_main_v33, Cert.ReferenceIdeal.ReadP.val_main_v32, Cert.ReferenceIdeal.ReadP.val_main_v31, Cert.ReferenceIdeal.ReadP.val_main_v30, Cert.ReferenceIdeal.ReadP.val_main_v29, Cert.ReferenceIdeal.ReadP.val_main_v28, Cert.ReferenceIdeal.ReadP.val_main_c_4, Cert.ReferenceIdeal.ReadP.val_main_c_5, Cert.ReferenceIdeal.ReadP.val_main_cst_6, Cert.ReferenceIdeal.ReadP.val_main_v45, Cert.ReferenceIdeal.ReadP.val_main_v44, Cert.ReferenceIdeal.ReadP.val_main_v43, Cert.ReferenceIdeal.ReadP.val_main_v41, Cert.ReferenceIdeal.ReadP.val_main_v42, Cert.ReferenceIdeal.ReadP.val_main_v40, Cert.ReferenceIdeal.ReadP.val_main_v39, Cert.ReferenceIdeal.ReadP.val_main_v38, Cert.ReferenceIdeal.ReadP.val_main_cst_7, Cert.ReferenceIdeal.ReadP.val_main_cst_8, Cert.ReferenceIdeal.ReadP.val_main_cst_9]
  rfl

set_option maxHeartbeats 8000000 in
/-- The first 4096 rows of layer 1's result. -/
theorem s1_v47 (U : Valuation τ sig (Elt Ideal)) :
    (StableHlo.after hostOps1 U (Proc.devRef .tc main_v47) : S4096x256.Idx → EReal) = Cert.ReferenceIdeal.Layers.head2 (F := Ideal) (U (Proc.devRef .tc main_v25)) := by
  after_results_simp
  simp only [truncf_id, Cert.ReferenceIdeal.Layers.head2]

/-- A change of float format is the identity on extended reals. -/
theorem s1_v48 (U : Valuation τ sig (Elt Ideal)) :
    (StableHlo.after hostOps1 U (Proc.devRef .tc main_v48) : S256x128.Idx → EReal) = (U (Proc.devRef .tc main_arg8) : S256x128.Idx → EReal) := by
  after_results_simp
  rfl

/-- A change of float format is the identity on extended reals. -/
theorem s1_v49 (U : Valuation τ sig (Elt Ideal)) :
    (StableHlo.after hostOps1 U (Proc.devRef .tc main_v49) : S256x128.Idx → EReal) = (U (Proc.devRef .tc main_arg9) : S256x128.Idx → EReal) := by
  after_results_simp
  rfl

/-- The bias vector reshaped to a row reads, at column `q`, its entry `q`. -/
theorem s1_v50 (U : Valuation τ sig (Elt Ideal)) :
    (StableHlo.after hostOps1 U (Proc.devRef .tc main_v50) : S1x128.Idx → EReal) = Cert.ReferenceIdeal.Layers.rowOf (U (Proc.devRef .tc main_arg10) : (⟨1, ![128]⟩ : Shape).Idx → EReal) := by
  after_results_simp
  generalize (U (Proc.devRef .tc main_arg10) : (⟨1, ![128]⟩ : Shape).Idx → EReal) = x
  funext i
  obtain ⟨u, q, rfl⟩ : ∃ (u : Fin 1) (q : Fin 128), i = ix2 u q := ⟨i 0, i 1, eq_ix2 i⟩
  exact shapeCast_a_1a_apply x _ u q

/-! ## Before layer 3 -/

/-- A change of float format is the identity on extended reals. -/
theorem s2_v52 (U : Valuation τ sig (Elt Ideal)) :
    (StableHlo.after hostOps2 U (Proc.devRef .tc main_v52) : S4096x128.Idx → EReal) = (U (Proc.devRef .tc main_v51) : S4096x128.Idx → EReal) := by
  after_results_simp
  rfl

/-- A change of float format is the identity on extended reals. -/
theorem s2_v53 (U : Valuation τ sig (Elt Ideal)) :
    (StableHlo.after hostOps2 U (Proc.devRef .tc main_v53) : S128x128.Idx → EReal) = (U (Proc.devRef .tc main_arg11) : S128x128.Idx → EReal) := by
  after_results_simp
  rfl

/-- The bias vector reshaped to a row reads, at column `q`, its entry `q`. -/
theorem s2_v54 (U : Valuation τ sig (Elt Ideal)) :
    (StableHlo.after hostOps2 U (Proc.devRef .tc main_v54) : S1x128.Idx → EReal) = Cert.ReferenceIdeal.Layers.rowOf (U (Proc.devRef .tc main_arg12) : (⟨1, ![128]⟩ : Shape).Idx → EReal) := by
  after_results_simp
  generalize (U (Proc.devRef .tc main_arg12) : (⟨1, ![128]⟩ : Shape).Idx → EReal) = x
  funext i
  obtain ⟨u, q, rfl⟩ : ∃ (u : Fin 1) (q : Fin 128), i = ix2 u q := ⟨i 0, i 1, eq_ix2 i⟩
  exact shapeCast_a_1a_apply x _ u q

/-! ## Before layer 4 -/

/-- A change of float format is the identity on extended reals. -/
theorem s3_v56 (U : Valuation τ sig (Elt Ideal)) :
    (StableHlo.after hostOps3 U (Proc.devRef .tc main_v56) : S4096x128.Idx → EReal) = (U (Proc.devRef .tc main_v55) : S4096x128.Idx → EReal) := by
  after_results_simp
  rfl

/-- A change of float format is the identity on extended reals. -/
theorem s3_v57 (U : Valuation τ sig (Elt Ideal)) :
    (StableHlo.after hostOps3 U (Proc.devRef .tc main_v57) : S128x40.Idx → EReal) = (U (Proc.devRef .tc main_arg13) : S128x40.Idx → EReal) := by
  after_results_simp
  rfl

/-- The bias vector reshaped to a row reads, at column `q`, its entry `q`. -/
theorem s3_v58 (U : Valuation τ sig (Elt Ideal)) :
    (StableHlo.after hostOps3 U (Proc.devRef .tc main_v58) : S1x40.Idx → EReal) = Cert.ReferenceIdeal.Layers.rowOf (U (Proc.devRef .tc main_arg14) : (⟨1, ![40]⟩ : Shape).Idx → EReal) := by
  after_results_simp
  generalize (U (Proc.devRef .tc main_arg14) : (⟨1, ![40]⟩ : Shape).Idx → EReal) = x
  funext i
  obtain ⟨u, q, rfl⟩ : ∃ (u : Fin 1) (q : Fin 40), i = ix2 u q := ⟨i 0, i 1, eq_ix2 i⟩
  exact shapeCast_a_1a_apply x _ u q

/-! ## After layer 4: the log-softmax -/

set_option maxHeartbeats 8000000 in
theorem s4_v60 (U : Valuation τ sig (Elt Ideal)) :
    (StableHlo.after hostOps4 U (Proc.devRef .tc main_v60) : S4096x40.Idx → EReal) = Cert.ReferenceIdeal.Layers.lsm (F := Ideal) (U (Proc.devRef .tc main_v59)) := by
  after_results_simp
  simp only [ofBuf_toBuf, toBuf_v60, ofBuf_v59, Cert.ReferenceIdeal.Layers.lsm, Cert.ReferenceIdeal.Layers.lsmShift]

/-! ## A stretch writes no argument -/

macro "host_keeps" : tactic => `(tactic| (refine StableHlo.after_of_forall_not_mem _ _ (List.forall_iff_forall_mem.mp ?_); simp only [hostOps0, hostOps1, hostOps2, hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]; (repeat' apply And.intro) <;> exact StableHlo.devRef_ne_of_ne (by decide)))

theorem keep_hostOps0_arg3 (U : Valuation τ sig (Elt Ideal)) : StableHlo.after hostOps0 U (Proc.devRef .tc main_arg3) = U (Proc.devRef .tc main_arg3) := by
  host_keeps
theorem keep_hostOps0_arg4 (U : Valuation τ sig (Elt Ideal)) : StableHlo.after hostOps0 U (Proc.devRef .tc main_arg4) = U (Proc.devRef .tc main_arg4) := by
  host_keeps
theorem keep_hostOps0_arg8 (U : Valuation τ sig (Elt Ideal)) : StableHlo.after hostOps0 U (Proc.devRef .tc main_arg8) = U (Proc.devRef .tc main_arg8) := by
  host_keeps
theorem keep_hostOps0_arg9 (U : Valuation τ sig (Elt Ideal)) : StableHlo.after hostOps0 U (Proc.devRef .tc main_arg9) = U (Proc.devRef .tc main_arg9) := by
  host_keeps
theorem keep_hostOps0_arg10 (U : Valuation τ sig (Elt Ideal)) : StableHlo.after hostOps0 U (Proc.devRef .tc main_arg10) = U (Proc.devRef .tc main_arg10) := by
  host_keeps
theorem keep_hostOps0_arg11 (U : Valuation τ sig (Elt Ideal)) : StableHlo.after hostOps0 U (Proc.devRef .tc main_arg11) = U (Proc.devRef .tc main_arg11) := by
  host_keeps
theorem keep_hostOps0_arg12 (U : Valuation τ sig (Elt Ideal)) : StableHlo.after hostOps0 U (Proc.devRef .tc main_arg12) = U (Proc.devRef .tc main_arg12) := by
  host_keeps
theorem keep_hostOps0_arg13 (U : Valuation τ sig (Elt Ideal)) : StableHlo.after hostOps0 U (Proc.devRef .tc main_arg13) = U (Proc.devRef .tc main_arg13) := by
  host_keeps
theorem keep_hostOps0_arg14 (U : Valuation τ sig (Elt Ideal)) : StableHlo.after hostOps0 U (Proc.devRef .tc main_arg14) = U (Proc.devRef .tc main_arg14) := by
  host_keeps
theorem keep_hostOps1_arg11 (U : Valuation τ sig (Elt Ideal)) : StableHlo.after hostOps1 U (Proc.devRef .tc main_arg11) = U (Proc.devRef .tc main_arg11) := by
  host_keeps
theorem keep_hostOps1_arg12 (U : Valuation τ sig (Elt Ideal)) : StableHlo.after hostOps1 U (Proc.devRef .tc main_arg12) = U (Proc.devRef .tc main_arg12) := by
  host_keeps
theorem keep_hostOps1_arg13 (U : Valuation τ sig (Elt Ideal)) : StableHlo.after hostOps1 U (Proc.devRef .tc main_arg13) = U (Proc.devRef .tc main_arg13) := by
  host_keeps
theorem keep_hostOps1_arg14 (U : Valuation τ sig (Elt Ideal)) : StableHlo.after hostOps1 U (Proc.devRef .tc main_arg14) = U (Proc.devRef .tc main_arg14) := by
  host_keeps
theorem keep_hostOps2_arg13 (U : Valuation τ sig (Elt Ideal)) : StableHlo.after hostOps2 U (Proc.devRef .tc main_arg13) = U (Proc.devRef .tc main_arg13) := by
  host_keeps
theorem keep_hostOps2_arg14 (U : Valuation τ sig (Elt Ideal)) : StableHlo.after hostOps2 U (Proc.devRef .tc main_arg14) = U (Proc.devRef .tc main_arg14) := by
  host_keeps

end Cert.KernelIdeal.Chain

end
-- ==== Proof.KernelBodies.lean ====
/-
  The arithmetic of the four layer bodies at the extended reals, read at one element. Each body multiplies a block of
  2048 rows by a weight matrix held whole (the two aggregation layers: two such products, added), adds a bias row to
  every row, and (all but the second layer) takes the maximum with zero. A matrix product into a zero accumulator is,
  element by element, the sum over the contracted coordinate; a change of float format is the identity; the bias row
  [1, n], cast to [n] and back and broadcast down the rows, reads at (p, q) the row's entry at column q.
-/
import proofs.«161704_j29746943492301_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix products -/

/-- Layer 0's matrix product into a zero accumulator, read at row `p`, column `q`: the sum over the contracted
    coordinate `k` of the left operand at `(p, k)` times the right at `(k, q)`. -/
theorem mm0_apply (a : FVec Ideal S2048x512 .bf16) (w : FVec Ideal S512x256 .bf16) (p : Fin 2048) (q : Fin 256) :
    FloatOps.matmul dot_S2048x512_S512x256_S2048x256_1_0_0_1_n_n none a w (constant (F := Ideal) S2048x256 .f32 0x00000000#32) (ix2 p q)
      = ∑ k : Fin 512, a (ix2 p k) * w (ix2 k q) := by
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun ax => Fin.ext (by
    match ax with
    | ⟨0, _⟩ =>
      show (dot_S2048x512_S512x256_S2048x256_1_0_0_1_n_n.lhsIdx (ix2 p q) _ 0).val = p.val
      unfold DotDims.lhsIdx
      rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
      rfl
    | ⟨1, _⟩ => exact (dot_S2048x512_S512x256_S2048x256_1_0_0_1_n_n.lhsIdx_val_of_single rfl _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun ax => Fin.ext (by
    match ax with
    | ⟨0, _⟩ => exact (dot_S2048x512_S512x256_S2048x256_1_0_0_1_n_n.rhsIdx_val_of_single rfl _ _).trans hk
    | ⟨1, _⟩ =>
      show (dot_S2048x512_S512x256_S2048x256_1_0_0_1_n_n.rhsIdx (ix2 p q) _ 1).val = q.val
      unfold DotDims.rhsIdx
      rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
      rfl)
  rw [el, er]

/-- Layer 1's matrix product into a zero accumulator, read at row `p`, column `q`: the sum over the contracted
    coordinate `k` of the left operand at `(p, k)` times the right at `(k, q)`. -/
theorem mm1_apply (a : FVec Ideal S2048x256 .bf16) (w : FVec Ideal S256x128 .bf16) (p : Fin 2048) (q : Fin 128) :
    FloatOps.matmul dot_S2048x256_S256x128_S2048x128_1_0_0_1_n_n none a w (constant (F := Ideal) S2048x128 .f32 0x00000000#32) (ix2 p q)
      = ∑ k : Fin 256, a (ix2 p k) * w (ix2 k q) := by
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun ax => Fin.ext (by
    match ax with
    | ⟨0, _⟩ =>
      show (dot_S2048x256_S256x128_S2048x128_1_0_0_1_n_n.lhsIdx (ix2 p q) _ 0).val = p.val
      unfold DotDims.lhsIdx
      rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
      rfl
    | ⟨1, _⟩ => exact (dot_S2048x256_S256x128_S2048x128_1_0_0_1_n_n.lhsIdx_val_of_single rfl _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun ax => Fin.ext (by
    match ax with
    | ⟨0, _⟩ => exact (dot_S2048x256_S256x128_S2048x128_1_0_0_1_n_n.rhsIdx_val_of_single rfl _ _).trans hk
    | ⟨1, _⟩ =>
      show (dot_S2048x256_S256x128_S2048x128_1_0_0_1_n_n.rhsIdx (ix2 p q) _ 1).val = q.val
      unfold DotDims.rhsIdx
      rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
      rfl)
  rw [el, er]

/-- Layer 2's matrix product into a zero accumulator, read at row `p`, column `q`: the sum over the contracted
    coordinate `k` of the left operand at `(p, k)` times the right at `(k, q)`. -/
theorem mm2_apply (a : FVec Ideal S2048x128 .bf16) (w : FVec Ideal S128x128 .bf16) (p : Fin 2048) (q : Fin 128) :
    FloatOps.matmul dot_S2048x128_S128x128_S2048x128_1_0_0_1_n_n none a w (constant (F := Ideal) S2048x128 .f32 0x00000000#32) (ix2 p q)
      = ∑ k : Fin 128, a (ix2 p k) * w (ix2 k q) := by
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun ax => Fin.ext (by
    match ax with
    | ⟨0, _⟩ =>
      show (dot_S2048x128_S128x128_S2048x128_1_0_0_1_n_n.lhsIdx (ix2 p q) _ 0).val = p.val
      unfold DotDims.lhsIdx
      rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
      rfl
    | ⟨1, _⟩ => exact (dot_S2048x128_S128x128_S2048x128_1_0_0_1_n_n.lhsIdx_val_of_single rfl _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun ax => Fin.ext (by
    match ax with
    | ⟨0, _⟩ => exact (dot_S2048x128_S128x128_S2048x128_1_0_0_1_n_n.rhsIdx_val_of_single rfl _ _).trans hk
    | ⟨1, _⟩ =>
      show (dot_S2048x128_S128x128_S2048x128_1_0_0_1_n_n.rhsIdx (ix2 p q) _ 1).val = q.val
      unfold DotDims.rhsIdx
      rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
      rfl)
  rw [el, er]

/-- Layer 3's matrix product into a zero accumulator, read at row `p`, column `q`: the sum over the contracted
    coordinate `k` of the left operand at `(p, k)` times the right at `(k, q)`. -/
theorem mm3_apply (a : FVec Ideal S2048x128 .bf16) (w : FVec Ideal S128x40 .bf16) (p : Fin 2048) (q : Fin 40) :
    FloatOps.matmul dot_S2048x128_S128x40_S2048x40_1_0_0_1_n_n none a w (constant (F := Ideal) S2048x40 .f32 0x00000000#32) (ix2 p q)
      = ∑ k : Fin 128, a (ix2 p k) * w (ix2 k q) := by
  rw [Ideal.matmul_constant_zero_apply, ← Equiv.sum_comp (contrEquiv1 dot_S2048x128_S128x40_S2048x40_1_0_0_1_n_n 128 rfl rfl).symm]
  refine Finset.sum_congr rfl fun k _ => ?_
  have hk := contrEquiv1_symm_val dot_S2048x128_S128x40_S2048x40_1_0_0_1_n_n 128 rfl rfl k
  have el : dot_S2048x128_S128x40_S2048x40_1_0_0_1_n_n.lhsIdx (ix2 p q) ((contrEquiv1 dot_S2048x128_S128x40_S2048x40_1_0_0_1_n_n 128 rfl rfl).symm k) = ix2 p k := funext fun ax => Fin.ext (by
    match ax with
    | ⟨0, _⟩ =>
      show (dot_S2048x128_S128x40_S2048x40_1_0_0_1_n_n.lhsIdx (ix2 p q) _ 0).val = p.val
      unfold DotDims.lhsIdx
      rw [dif_neg (show ¬(0 : Fin S2048x128.rank) ∈ dot_S2048x128_S128x40_S2048x40_1_0_0_1_n_n.lhsBatch by decide), dif_pos (show (0 : Fin S2048x128.rank) ∈ dot_S2048x128_S128x40_S2048x40_1_0_0_1_n_n.lhsNonContracting by decide)]
      rfl
    | ⟨1, _⟩ => exact (dot_S2048x128_S128x40_S2048x40_1_0_0_1_n_n.lhsIdx_val_of_single rfl _ _).trans hk)
  have er : dot_S2048x128_S128x40_S2048x40_1_0_0_1_n_n.rhsIdx (ix2 p q) ((contrEquiv1 dot_S2048x128_S128x40_S2048x40_1_0_0_1_n_n 128 rfl rfl).symm k) = ix2 k q := funext fun ax => Fin.ext (by
    match ax with
    | ⟨0, _⟩ => exact (dot_S2048x128_S128x40_S2048x40_1_0_0_1_n_n.rhsIdx_val_of_single rfl _ _).trans hk
    | ⟨1, _⟩ =>
      show (dot_S2048x128_S128x40_S2048x40_1_0_0_1_n_n.rhsIdx (ix2 p q) _ 1).val = q.val
      unfold DotDims.rhsIdx
      rw [dif_neg (show ¬(1 : Fin S128x40.rank) ∈ dot_S2048x128_S128x40_S2048x40_1_0_0_1_n_n.rhsBatch by decide), dif_pos (show (1 : Fin S128x40.rank) ∈ dot_S2048x128_S128x40_S2048x40_1_0_0_1_n_n.rhsNonContracting by decide)]
      rfl)
  rw [el, er]

/-! ## The bias row as the bodies spell it -/

/-- A `[1, n]` row cast to `[n]`, back to `[1, n]` and broadcast to `[a, n]` reads, at `(p, q)`, the row at column `q`. -/
theorem biasRow_apply {a n : ℕ} (b : (⟨2, ![1, n]⟩ : Shape).Idx → EReal)
    (h1 : (⟨2, ![1, n]⟩ : Shape).ShapeCasts ⟨1, ![n]⟩)
    (h2 : (⟨1, ![n]⟩ : Shape).ShapeCasts ⟨2, ![1, n]⟩) (h3 : (⟨2, ![1, n]⟩ : Shape).Broadcasts ⟨2, ![a, n]⟩) (p : Fin a) (q : Fin n) :
    broadcastTo ⟨2, ![a, n]⟩ (shapeCast ⟨2, ![1, n]⟩ (shapeCast ⟨1, ![n]⟩ b h1) h2) h3 (ix2 p q)
      = b (ix2 (0 : Fin 1) q) := by
  rw [broadcastTo_1b_ab_apply, shapeCast_a_1a_apply, shapeCast_1a_a_apply]

/-! ## The payloads at an element -/

/-- Layer 0's stored value at `(p, q)`: `max ((Σₖ a[p,k]·wl[k,q] + Σₖ x[p,k]·wr[k,q]) + b[q], 0)`. -/
theorem pay0_apply (a : FVec Ideal S2048x512 .bf16) (wl : FVec Ideal S512x256 .bf16) (x : FVec Ideal S2048x512 .bf16)
    (wr : FVec Ideal S512x256 .bf16) (b : FVec Ideal S1x256 .f32) (p : Fin 2048) (q : Fin 256) :
    k0_pay1 (F := Ideal) a wl x wr b (ix2 p q)
      = max (((∑ k : Fin 512, a (ix2 p k) * wl (ix2 k q)) + ∑ k : Fin 512, x (ix2 p k) * wr (ix2 k q)) + b (ix2 (0 : Fin 1) q))
          (Ideal.ofBits .f32 0x00000000#32) := by
  unfold k0_pay1
  simp only [shapeCast_self, maximumf_apply, addf_apply, broadcast_apply, matmul]
  rw [mm0_apply a wl p q, mm0_apply x wr p q, biasRow_apply (a := 2048) (n := 256) b _ _ _ p q]
  rfl

/-- Layer 1's stored value at `(p, q)`: `(Σₖ a[p,k]·wl[k,q] + Σₖ x[p,k]·wr[k,q]) + b[q]`. -/
theorem pay1_apply (a : FVec Ideal S2048x256 .bf16) (wl : FVec Ideal S256x128 .bf16) (x : FVec Ideal S2048x256 .bf16)
    (wr : FVec Ideal S256x128 .bf16) (b : FVec Ideal S1x128 .f32) (p : Fin 2048) (q : Fin 128) :
    k1_pay1 (F := Ideal) a wl x wr b (ix2 p q)
      = ((∑ k : Fin 256, a (ix2 p k) * wl (ix2 k q)) + ∑ k : Fin 256, x (ix2 p k) * wr (ix2 k q)) + b (ix2 (0 : Fin 1) q) := by
  unfold k1_pay1
  simp only [shapeCast_self, addf_apply, matmul]
  rw [mm1_apply a wl p q, mm1_apply x wr p q, biasRow_apply (a := 2048) (n := 128) b _ _ _ p q]

/-- Layer 2's stored value at `(p, q)`: `max (Σₖ a[p,k]·w[k,q] + b[q], 0)`. -/
theorem pay2_apply (a : FVec Ideal S2048x128 .bf16) (w : FVec Ideal S128x128 .bf16) (b : FVec Ideal S1x128 .f32)
    (p : Fin 2048) (q : Fin 128) :
    k2_pay1 (F := Ideal) a w b (ix2 p q)
      = max ((∑ k : Fin 128, a (ix2 p k) * w (ix2 k q)) + b (ix2 (0 : Fin 1) q)) (Ideal.ofBits .f32 0x00000000#32) := by
  unfold k2_pay1
  simp only [shapeCast_self, maximumf_apply, addf_apply, broadcast_apply, matmul]
  rw [mm2_apply a w p q, biasRow_apply (a := 2048) (n := 128) b _ _ _ p q]
  rfl

/-- Layer 3's stored value at `(p, q)`: `max (Σₖ a[p,k]·w[k,q] + b[q], 0)`. -/
theorem pay3_apply (a : FVec Ideal S2048x128 .bf16) (w : FVec Ideal S128x40 .bf16) (b : FVec Ideal S1x40 .f32)
    (p : Fin 2048) (q : Fin 40) :
    k3_pay1 (F := Ideal) a w b (ix2 p q)
      = max ((∑ k : Fin 128, a (ix2 p k) * w (ix2 k q)) + b (ix2 (0 : Fin 1) q)) (Ideal.ofBits .f32 0x00000000#32) := by
  unfold k3_pay1
  simp only [shapeCast_self, maximumf_apply, addf_apply, broadcast_apply, matmul]
  rw [mm3_apply a w p q, biasRow_apply (a := 2048) (n := 40) b _ _ _ p q]
  rfl

end Cert.KernelIdeal.Body

end
-- ==== Proof.Region0.lean ====
/-
  Layer 0 of the idealized kernel as ONE function of the arrays its region is entered with. The region walks 16 blocks
  of 2048 rows; at block `t` the body reads rows 2048·t … of its row-blocked operands, the weights and the
  bias row whole, and writes rows 2048·t … of the [32768, 256] result. Entry (p, q) of a block depends on row p of
  the block only, so what block `t` writes back is block `t` of the layer of the whole arrays; the blocks tile the
  result (row `r` is in block `r / 2048`), so after the last block the result array IS that layer.
-/
import proofs.«161704_j29746943492301_1_alg».proof.Proof.Gen.KernelIdeal.Frame
import proofs.«161704_j29746943492301_1_alg».proof.Proof.KernelBodies
import proofs.«161704_j29746943492301_1_alg».proof.Proof.LayerSpec
import Idealize.ShloMosaic.Lib.Pipeline.Value

set_option maxRecDepth 16384

noncomputable section

namespace Cert.KernelIdeal.Region0

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Row `p` of block `t` is row `2048·t + p` of the array. -/
def row (t : Fin cfg0.N) (p : Fin 2048) : Fin 32768 :=
  ⟨t.val * 2048 + p.val, by have h : t.val < 16 := t.isLt; have := p.isLt; omega⟩

/-- Window 0's block at point `t` is rows `2048·t … 2048·t + 2047` of its array as the region finds it. -/
theorem blk0 (c : Dev nD) (t : Fin cfg0.N) (p : Fin 2048) (k : Fin 512) :
    (iblk0 V c 0 t : FVec Ideal S2048x512 .bf16) (ix2 p k) = (V c main_v20 : S32768x512.Idx → EReal) (ix2 (row t p) k) := by
  obtain ⟨⟨e0a, e0b⟩, ⟨e1a, e1b⟩, ⟨e2a, e2b⟩, ⟨e3a, e3b⟩, ⟨e4a, e4b⟩, ⟨e5a, e5b⟩⟩ := idx_facts t
  unfold iblk0
  rw [View.read_apply]
  show V c main_v20 _ = V c main_v20 _
  congr 1
  funext a
  apply Fin.ext
  match a with
  | ⟨0, _⟩ => show win0_0.index t (0 : Fin 2) * 2048 + 1 * p.val = t.val * 2048 + p.val; rw [e0a]; omega
  | ⟨1, _⟩ => show win0_0.index t (1 : Fin 2) * 512 + 1 * k.val = k.val; rw [e0b]; omega

/-- Window 1's block at point `t` is rows `2048·t … 2048·t + 2047` of its array as the region finds it. -/
theorem blk1 (c : Dev nD) (t : Fin cfg0.N) (p : Fin 2048) (k : Fin 512) :
    (iblk0 V c 1 t : FVec Ideal S2048x512 .bf16) (ix2 p k) = (V c main_v21 : S32768x512.Idx → EReal) (ix2 (row t p) k) := by
  obtain ⟨⟨e0a, e0b⟩, ⟨e1a, e1b⟩, ⟨e2a, e2b⟩, ⟨e3a, e3b⟩, ⟨e4a, e4b⟩, ⟨e5a, e5b⟩⟩ := idx_facts t
  unfold iblk0
  rw [View.read_apply]
  show V c main_v21 _ = V c main_v21 _
  congr 1
  funext a
  apply Fin.ext
  match a with
  | ⟨0, _⟩ => show win0_1.index t (0 : Fin 2) * 2048 + 1 * p.val = t.val * 2048 + p.val; rw [e1a]; omega
  | ⟨1, _⟩ => show win0_1.index t (1 : Fin 2) * 512 + 1 * k.val = k.val; rw [e1b]; omega

/-- Window 2 holds its array whole at every point. -/
theorem blk2 (c : Dev nD) (t : Fin cfg0.N) (p : Fin 512) (k : Fin 256) :
    (iblk0 V c 2 t : FVec Ideal S512x256 .bf16) (ix2 p k) = (V c main_v22 : S512x256.Idx → EReal) (ix2 p k) := by
  obtain ⟨⟨e0a, e0b⟩, ⟨e1a, e1b⟩, ⟨e2a, e2b⟩, ⟨e3a, e3b⟩, ⟨e4a, e4b⟩, ⟨e5a, e5b⟩⟩ := idx_facts t
  unfold iblk0
  rw [View.read_apply]
  show V c main_v22 _ = V c main_v22 _
  congr 1
  funext a
  apply Fin.ext
  match a with
  | ⟨0, _⟩ => show win0_2.index t (0 : Fin 2) * 512 + 1 * p.val = p.val; rw [e2a]; omega
  | ⟨1, _⟩ => show win0_2.index t (1 : Fin 2) * 256 + 1 * k.val = k.val; rw [e2b]; omega

/-- Window 3 holds its array whole at every point. -/
theorem blk3 (c : Dev nD) (t : Fin cfg0.N) (p : Fin 512) (k : Fin 256) :
    (iblk0 V c 3 t : FVec Ideal S512x256 .bf16) (ix2 p k) = (V c main_v23 : S512x256.Idx → EReal) (ix2 p k) := by
  obtain ⟨⟨e0a, e0b⟩, ⟨e1a, e1b⟩, ⟨e2a, e2b⟩, ⟨e3a, e3b⟩, ⟨e4a, e4b⟩, ⟨e5a, e5b⟩⟩ := idx_facts t
  unfold iblk0
  rw [View.read_apply]
  show V c main_v23 _ = V c main_v23 _
  congr 1
  funext a
  apply Fin.ext
  match a with
  | ⟨0, _⟩ => show win0_3.index t (0 : Fin 2) * 512 + 1 * p.val = p.val; rw [e3a]; omega
  | ⟨1, _⟩ => show win0_3.index t (1 : Fin 2) * 256 + 1 * k.val = k.val; rw [e3b]; omega

/-- Window 4 holds its array whole at every point. -/
theorem blk4 (c : Dev nD) (t : Fin cfg0.N) (p : Fin 1) (k : Fin 256) :
    (iblk0 V c 4 t : FVec Ideal S1x256 .f32) (ix2 p k) = (V c main_v24 : S1x256.Idx → EReal) (ix2 p k) := by
  obtain ⟨⟨e0a, e0b⟩, ⟨e1a, e1b⟩, ⟨e2a, e2b⟩, ⟨e3a, e3b⟩, ⟨e4a, e4b⟩, ⟨e5a, e5b⟩⟩ := idx_facts t
  unfold iblk0
  rw [View.read_apply]
  show V c main_v24 _ = V c main_v24 _
  congr 1
  funext a
  apply Fin.ext
  match a with
  | ⟨0, _⟩ => show win0_4.index t (0 : Fin 2) * 1 + 1 * p.val = p.val; rw [e4a]; omega
  | ⟨1, _⟩ => show win0_4.index t (1 : Fin 2) * 256 + 1 * k.val = k.val; rw [e4b]; omega

/-- WHAT BLOCK `t` WRITES BACK is block `t` of the layer of the whole arrays. -/
theorem flushed_eq (c : Dev nD) (t : Fin cfg0.N) :
    (dat0 V c).flushed 5 t = ((cfg0.win 5).blk t).view.read (Elt Ideal) (Layer.relu (Layer.sage (V c main_v20) (V c main_v21) (V c main_v22) (V c main_v23) (V c main_v24))) := by
  show (cfg0.win 5).cut (grid0.coords t) ((dat0 V c).after 5 t) = _
  rw [after0_5]
  unfold out0_5
  rw [View.canon_unit_zero hz]
  simp only [View.ld_unit_zero (S := S2048x512) hz, View.ld_unit_zero (S := S512x256) hz, View.ld_unit_zero (S := S1x256) hz]
  obtain ⟨⟨e0a, e0b⟩, ⟨e1a, e1b⟩, ⟨e2a, e2b⟩, ⟨e3a, e3b⟩, ⟨e4a, e4b⟩, ⟨e5a, e5b⟩⟩ := idx_facts t
  funext j
  obtain ⟨p, q, rfl⟩ : ∃ (p : Fin 2048) (q : Fin 256), j = ix2 p q := ⟨j 0, j 1, eq_ix2 j⟩
  rw [View.read_apply]
  have hemb : ((cfg0.win 5).blk t).view.emb (ix2 p q) = (ix2 (row t p) q : S32768x256.Idx) := by
    funext a
    apply Fin.ext
    match a with
    | ⟨0, _⟩ => show win0_5.index t (0 : Fin 2) * 2048 + 1 * p.val = t.val * 2048 + p.val; rw [e5a]; omega
    | ⟨1, _⟩ => show win0_5.index t (1 : Fin 2) * 256 + 1 * q.val = q.val; rw [e5b]; omega
  rw [hemb]
  refine (pay0_apply (iblk0 V c 0 t) (iblk0 V c 2 t) (iblk0 V c 1 t) (iblk0 V c 3 t) (iblk0 V c 4 t) p q).trans ?_
  simp only [blk0 V c t, blk1 V c t, blk2 V c t, blk3 V c t, blk4 V c t]
  rfl

/-- Every index of the result array is in some block: row `r` in block `r / 2048`. -/
theorem cover (i : S32768x256.Idx) : ∃ t : Fin cfg0.N, (cfg0.win 5).flush t = true ∧ i ∈ ((cfg0.win 5).blk t).view.set := by
  have hi0 : (i 0).val < 32768 := (i 0).isLt
  have hi1 : (i 1).val < 256 := (i 1).isLt
  let t : Fin cfg0.N := ⟨(i 0).val / 2048, by show (i 0).val / 2048 < 16; omega⟩
  have ht : t.val = (i 0).val / 2048 := rfl
  obtain ⟨⟨e0a, e0b⟩, ⟨e1a, e1b⟩, ⟨e2a, e2b⟩, ⟨e3a, e3b⟩, ⟨e4a, e4b⟩, ⟨e5a, e5b⟩⟩ := idx_facts t
  refine ⟨t, flush0_5 t, ?_⟩
  show i ∈ ((View.whole main_v25).slice (win0_5.rect t)).set
  rw [View.set_slice_whole, Rect.mem_set_unit]
  intro a
  match a with
  | ⟨0, _⟩ => show win0_5.index t (0 : Fin 2) * 2048 ≤ (i 0).val ∧ (i 0).val < win0_5.index t (0 : Fin 2) * 2048 + 2048; rw [e5a, ht]; omega
  | ⟨1, _⟩ => show win0_5.index t (1 : Fin 2) * 256 ≤ (i 1).val ∧ (i 1).val < win0_5.index t (1 : Fin 2) * 256 + 256; rw [e5b]; omega

/-- THE RESULT ARRAY after the region: the layer of the arrays the region was entered with. -/
theorem final (c : Dev nD) : (dat0 V c).arrAt 5 cfg0.N = Layer.relu (Layer.sage (V c main_v20) (V c main_v21) (V c main_v22) (V c main_v23) (V c main_v24)) :=
  (dat0 V c).arrAt_eq_of_cover 5 _ (fun t _ => flushed_eq V c t) (cover)

end Cert.KernelIdeal.Region0

end
-- ==== Proof.Region1.lean ====
/-
  Layer 1 of the idealized kernel as ONE function of the arrays its region is entered with. The region walks 2 blocks
  of 2048 rows; at block `t` the body reads rows 2048·t … of its row-blocked operands, the weights and the
  bias row whole, and writes rows 2048·t … of the [4096, 128] result. Entry (p, q) of a block depends on row p of
  the block only, so what block `t` writes back is block `t` of the layer of the whole arrays; the blocks tile the
  result (row `r` is in block `r / 2048`), so after the last block the result array IS that layer.
-/
import proofs.«161704_j29746943492301_1_alg».proof.Proof.Gen.KernelIdeal.Frame
import proofs.«161704_j29746943492301_1_alg».proof.Proof.KernelBodies
import proofs.«161704_j29746943492301_1_alg».proof.Proof.LayerSpec
import Idealize.ShloMosaic.Lib.Pipeline.Value

set_option maxRecDepth 16384

noncomputable section

namespace Cert.KernelIdeal.Region1

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Row `p` of block `t` is row `2048·t + p` of the array. -/
def row (t : Fin cfg1.N) (p : Fin 2048) : Fin 4096 :=
  ⟨t.val * 2048 + p.val, by have h : t.val < 2 := t.isLt; have := p.isLt; omega⟩

/-- Window 0's block at point `t` is rows `2048·t … 2048·t + 2047` of its array as the region finds it. -/
theorem blk0 (c : Dev nD) (t : Fin cfg1.N) (p : Fin 2048) (k : Fin 256) :
    (iblk1 V c 0 t : FVec Ideal S2048x256 .bf16) (ix2 p k) = (V c main_v46 : S4096x256.Idx → EReal) (ix2 (row t p) k) := by
  obtain ⟨⟨e0a, e0b⟩, ⟨e1a, e1b⟩, ⟨e2a, e2b⟩, ⟨e3a, e3b⟩, ⟨e4a, e4b⟩, ⟨e5a, e5b⟩⟩ := idx_facts t
  unfold iblk1
  rw [View.read_apply]
  show V c main_v46 _ = V c main_v46 _
  congr 1
  funext a
  apply Fin.ext
  match a with
  | ⟨0, _⟩ => show win1_0.index t (0 : Fin 2) * 2048 + 1 * p.val = t.val * 2048 + p.val; rw [e0a]; omega
  | ⟨1, _⟩ => show win1_0.index t (1 : Fin 2) * 256 + 1 * k.val = k.val; rw [e0b]; omega

/-- Window 1's block at point `t` is rows `2048·t … 2048·t + 2047` of its array as the region finds it. -/
theorem blk1 (c : Dev nD) (t : Fin cfg1.N) (p : Fin 2048) (k : Fin 256) :
    (iblk1 V c 1 t : FVec Ideal S2048x256 .bf16) (ix2 p k) = (V c main_v47 : S4096x256.Idx → EReal) (ix2 (row t p) k) := by
  obtain ⟨⟨e0a, e0b⟩, ⟨e1a, e1b⟩, ⟨e2a, e2b⟩, ⟨e3a, e3b⟩, ⟨e4a, e4b⟩, ⟨e5a, e5b⟩⟩ := idx_facts t
  unfold iblk1
  rw [View.read_apply]
  show V c main_v47 _ = V c main_v47 _
  congr 1
  funext a
  apply Fin.ext
  match a with
  | ⟨0, _⟩ => show win1_1.index t (0 : Fin 2) * 2048 + 1 * p.val = t.val * 2048 + p.val; rw [e1a]; omega
  | ⟨1, _⟩ => show win1_1.index t (1 : Fin 2) * 256 + 1 * k.val = k.val; rw [e1b]; omega

/-- Window 2 holds its array whole at every point. -/
theorem blk2 (c : Dev nD) (t : Fin cfg1.N) (p : Fin 256) (k : Fin 128) :
    (iblk1 V c 2 t : FVec Ideal S256x128 .bf16) (ix2 p k) = (V c main_v48 : S256x128.Idx → EReal) (ix2 p k) := by
  obtain ⟨⟨e0a, e0b⟩, ⟨e1a, e1b⟩, ⟨e2a, e2b⟩, ⟨e3a, e3b⟩, ⟨e4a, e4b⟩, ⟨e5a, e5b⟩⟩ := idx_facts t
  unfold iblk1
  rw [View.read_apply]
  show V c main_v48 _ = V c main_v48 _
  congr 1
  funext a
  apply Fin.ext
  match a with
  | ⟨0, _⟩ => show win1_2.index t (0 : Fin 2) * 256 + 1 * p.val = p.val; rw [e2a]; omega
  | ⟨1, _⟩ => show win1_2.index t (1 : Fin 2) * 128 + 1 * k.val = k.val; rw [e2b]; omega

/-- Window 3 holds its array whole at every point. -/
theorem blk3 (c : Dev nD) (t : Fin cfg1.N) (p : Fin 256) (k : Fin 128) :
    (iblk1 V c 3 t : FVec Ideal S256x128 .bf16) (ix2 p k) = (V c main_v49 : S256x128.Idx → EReal) (ix2 p k) := by
  obtain ⟨⟨e0a, e0b⟩, ⟨e1a, e1b⟩, ⟨e2a, e2b⟩, ⟨e3a, e3b⟩, ⟨e4a, e4b⟩, ⟨e5a, e5b⟩⟩ := idx_facts t
  unfold iblk1
  rw [View.read_apply]
  show V c main_v49 _ = V c main_v49 _
  congr 1
  funext a
  apply Fin.ext
  match a with
  | ⟨0, _⟩ => show win1_3.index t (0 : Fin 2) * 256 + 1 * p.val = p.val; rw [e3a]; omega
  | ⟨1, _⟩ => show win1_3.index t (1 : Fin 2) * 128 + 1 * k.val = k.val; rw [e3b]; omega

/-- Window 4 holds its array whole at every point. -/
theorem blk4 (c : Dev nD) (t : Fin cfg1.N) (p : Fin 1) (k : Fin 128) :
    (iblk1 V c 4 t : FVec Ideal S1x128 .f32) (ix2 p k) = (V c main_v50 : S1x128.Idx → EReal) (ix2 p k) := by
  obtain ⟨⟨e0a, e0b⟩, ⟨e1a, e1b⟩, ⟨e2a, e2b⟩, ⟨e3a, e3b⟩, ⟨e4a, e4b⟩, ⟨e5a, e5b⟩⟩ := idx_facts t
  unfold iblk1
  rw [View.read_apply]
  show V c main_v50 _ = V c main_v50 _
  congr 1
  funext a
  apply Fin.ext
  match a with
  | ⟨0, _⟩ => show win1_4.index t (0 : Fin 2) * 1 + 1 * p.val = p.val; rw [e4a]; omega
  | ⟨1, _⟩ => show win1_4.index t (1 : Fin 2) * 128 + 1 * k.val = k.val; rw [e4b]; omega

/-- WHAT BLOCK `t` WRITES BACK is block `t` of the layer of the whole arrays. -/
theorem flushed_eq (c : Dev nD) (t : Fin cfg1.N) :
    (dat1 V c).flushed 5 t = ((cfg1.win 5).blk t).view.read (Elt Ideal) (Layer.sage (V c main_v46) (V c main_v47) (V c main_v48) (V c main_v49) (V c main_v50)) := by
  show (cfg1.win 5).cut (grid1.coords t) ((dat1 V c).after 5 t) = _
  rw [after1_5]
  unfold out1_5
  rw [View.canon_unit_zero hz]
  simp only [View.ld_unit_zero (S := S2048x256) hz, View.ld_unit_zero (S := S256x128) hz, View.ld_unit_zero (S := S1x128) hz]
  obtain ⟨⟨e0a, e0b⟩, ⟨e1a, e1b⟩, ⟨e2a, e2b⟩, ⟨e3a, e3b⟩, ⟨e4a, e4b⟩, ⟨e5a, e5b⟩⟩ := idx_facts t
  funext j
  obtain ⟨p, q, rfl⟩ : ∃ (p : Fin 2048) (q : Fin 128), j = ix2 p q := ⟨j 0, j 1, eq_ix2 j⟩
  rw [View.read_apply]
  have hemb : ((cfg1.win 5).blk t).view.emb (ix2 p q) = (ix2 (row t p) q : S4096x128.Idx) := by
    funext a
    apply Fin.ext
    match a with
    | ⟨0, _⟩ => show win1_5.index t (0 : Fin 2) * 2048 + 1 * p.val = t.val * 2048 + p.val; rw [e5a]; omega
    | ⟨1, _⟩ => show win1_5.index t (1 : Fin 2) * 128 + 1 * q.val = q.val; rw [e5b]; omega
  rw [hemb]
  refine (pay1_apply (iblk1 V c 0 t) (iblk1 V c 2 t) (iblk1 V c 1 t) (iblk1 V c 3 t) (iblk1 V c 4 t) p q).trans ?_
  simp only [blk0 V c t, blk1 V c t, blk2 V c t, blk3 V c t, blk4 V c t]
  rfl

/-- Every index of the result array is in some block: row `r` in block `r / 2048`. -/
theorem cover (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  let t : Fin cfg1.N := ⟨(i 0).val / 2048, by show (i 0).val / 2048 < 2; omega⟩
  have ht : t.val = (i 0).val / 2048 := rfl
  obtain ⟨⟨e0a, e0b⟩, ⟨e1a, e1b⟩, ⟨e2a, e2b⟩, ⟨e3a, e3b⟩, ⟨e4a, e4b⟩, ⟨e5a, e5b⟩⟩ := idx_facts t
  refine ⟨t, flush1_5 t, ?_⟩
  show i ∈ ((View.whole main_v51).slice (win1_5.rect t)).set
  rw [View.set_slice_whole, Rect.mem_set_unit]
  intro a
  match a with
  | ⟨0, _⟩ => show win1_5.index t (0 : Fin 2) * 2048 ≤ (i 0).val ∧ (i 0).val < win1_5.index t (0 : Fin 2) * 2048 + 2048; rw [e5a, ht]; omega
  | ⟨1, _⟩ => show win1_5.index t (1 : Fin 2) * 128 ≤ (i 1).val ∧ (i 1).val < win1_5.index t (1 : Fin 2) * 128 + 128; rw [e5b]; omega

/-- THE RESULT ARRAY after the region: the layer of the arrays the region was entered with. -/
theorem final (c : Dev nD) : (dat1 V c).arrAt 5 cfg1.N = Layer.sage (V c main_v46) (V c main_v47) (V c main_v48) (V c main_v49) (V c main_v50) :=
  (dat1 V c).arrAt_eq_of_cover 5 _ (fun t _ => flushed_eq V c t) (cover)

end Cert.KernelIdeal.Region1

end
-- ==== Proof.Region2.lean ====
/-
  Layer 2 of the idealized kernel as ONE function of the arrays its region is entered with. The region walks 2 blocks
  of 2048 rows; at block `t` the body reads rows 2048·t … of its row-blocked operand, the weights and the
  bias row whole, and writes rows 2048·t … of the [4096, 128] result. Entry (p, q) of a block depends on row p of
  the block only, so what block `t` writes back is block `t` of the layer of the whole arrays; the blocks tile the
  result (row `r` is in block `r / 2048`), so after the last block the result array IS that layer.
-/
import proofs.«161704_j29746943492301_1_alg».proof.Proof.Gen.KernelIdeal.Frame
import proofs.«161704_j29746943492301_1_alg».proof.Proof.KernelBodies
import proofs.«161704_j29746943492301_1_alg».proof.Proof.LayerSpec
import Idealize.ShloMosaic.Lib.Pipeline.Value

set_option maxRecDepth 16384

noncomputable section

namespace Cert.KernelIdeal.Region2

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's (0, 0). -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0) :=
  (by decide +kernel : ∀ t : Fin grid2.N, _)

/-- Row `p` of block `t` is row `2048·t + p` of the array. -/
def row (t : Fin cfg2.N) (p : Fin 2048) : Fin 4096 :=
  ⟨t.val * 2048 + p.val, by have h : t.val < 2 := t.isLt; have := p.isLt; omega⟩

/-- Window 0's block at point `t` is rows `2048·t … 2048·t + 2047` of its array as the region finds it. -/
theorem blk0 (c : Dev nD) (t : Fin cfg2.N) (p : Fin 2048) (k : Fin 128) :
    (iblk2 V c 0 t : FVec Ideal S2048x128 .bf16) (ix2 p k) = (V c main_v52 : S4096x128.Idx → EReal) (ix2 (row t p) k) := by
  obtain ⟨⟨e0a, e0b⟩, ⟨e1a, e1b⟩, ⟨e2a, e2b⟩, ⟨e3a, e3b⟩⟩ := idx_facts t
  unfold iblk2
  rw [View.read_apply]
  show V c main_v52 _ = V c main_v52 _
  congr 1
  funext a
  apply Fin.ext
  match a with
  | ⟨0, _⟩ => show win2_0.index t (0 : Fin 2) * 2048 + 1 * p.val = t.val * 2048 + p.val; rw [e0a]; omega
  | ⟨1, _⟩ => show win2_0.index t (1 : Fin 2) * 128 + 1 * k.val = k.val; rw [e0b]; omega

/-- Window 1 holds its array whole at every point. -/
theorem blk1 (c : Dev nD) (t : Fin cfg2.N) (p : Fin 128) (k : Fin 128) :
    (iblk2 V c 1 t : FVec Ideal S128x128 .bf16) (ix2 p k) = (V c main_v53 : S128x128.Idx → EReal) (ix2 p k) := by
  obtain ⟨⟨e0a, e0b⟩, ⟨e1a, e1b⟩, ⟨e2a, e2b⟩, ⟨e3a, e3b⟩⟩ := idx_facts t
  unfold iblk2
  rw [View.read_apply]
  show V c main_v53 _ = V c main_v53 _
  congr 1
  funext a
  apply Fin.ext
  match a with
  | ⟨0, _⟩ => show win2_1.index t (0 : Fin 2) * 128 + 1 * p.val = p.val; rw [e1a]; omega
  | ⟨1, _⟩ => show win2_1.index t (1 : Fin 2) * 128 + 1 * k.val = k.val; rw [e1b]; omega

/-- Window 2 holds its array whole at every point. -/
theorem blk2 (c : Dev nD) (t : Fin cfg2.N) (p : Fin 1) (k : Fin 128) :
    (iblk2 V c 2 t : FVec Ideal S1x128 .f32) (ix2 p k) = (V c main_v54 : S1x128.Idx → EReal) (ix2 p k) := by
  obtain ⟨⟨e0a, e0b⟩, ⟨e1a, e1b⟩, ⟨e2a, e2b⟩, ⟨e3a, e3b⟩⟩ := idx_facts t
  unfold iblk2
  rw [View.read_apply]
  show V c main_v54 _ = V c main_v54 _
  congr 1
  funext a
  apply Fin.ext
  match a with
  | ⟨0, _⟩ => show win2_2.index t (0 : Fin 2) * 1 + 1 * p.val = p.val; rw [e2a]; omega
  | ⟨1, _⟩ => show win2_2.index t (1 : Fin 2) * 128 + 1 * k.val = k.val; rw [e2b]; omega

/-- WHAT BLOCK `t` WRITES BACK is block `t` of the layer of the whole arrays. -/
theorem flushed_eq (c : Dev nD) (t : Fin cfg2.N) :
    (dat2 V c).flushed 3 t = ((cfg2.win 3).blk t).view.read (Elt Ideal) (Layer.relu (Layer.lin (V c main_v52) (V c main_v53) (V c main_v54))) := by
  show (cfg2.win 3).cut (grid2.coords t) ((dat2 V c).after 3 t) = _
  rw [after2_3]
  unfold out2_3
  rw [View.canon_unit_zero hz]
  simp only [View.ld_unit_zero (S := S2048x128) hz, View.ld_unit_zero (S := S128x128) hz, View.ld_unit_zero (S := S1x128) hz]
  obtain ⟨⟨e0a, e0b⟩, ⟨e1a, e1b⟩, ⟨e2a, e2b⟩, ⟨e3a, e3b⟩⟩ := idx_facts t
  funext j
  obtain ⟨p, q, rfl⟩ : ∃ (p : Fin 2048) (q : Fin 128), j = ix2 p q := ⟨j 0, j 1, eq_ix2 j⟩
  rw [View.read_apply]
  have hemb : ((cfg2.win 3).blk t).view.emb (ix2 p q) = (ix2 (row t p) q : S4096x128.Idx) := by
    funext a
    apply Fin.ext
    match a with
    | ⟨0, _⟩ => show win2_3.index t (0 : Fin 2) * 2048 + 1 * p.val = t.val * 2048 + p.val; rw [e3a]; omega
    | ⟨1, _⟩ => show win2_3.index t (1 : Fin 2) * 128 + 1 * q.val = q.val; rw [e3b]; omega
  rw [hemb]
  refine (pay2_apply (iblk2 V c 0 t) (iblk2 V c 1 t) (iblk2 V c 2 t) p q).trans ?_
  simp only [blk0 V c t, blk1 V c t, blk2 V c t]
  rfl

/-- Every index of the result array is in some block: row `r` in block `r / 2048`. -/
theorem cover (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  let t : Fin cfg2.N := ⟨(i 0).val / 2048, by show (i 0).val / 2048 < 2; omega⟩
  have ht : t.val = (i 0).val / 2048 := rfl
  obtain ⟨⟨e0a, e0b⟩, ⟨e1a, e1b⟩, ⟨e2a, e2b⟩, ⟨e3a, e3b⟩⟩ := idx_facts t
  refine ⟨t, flush2_3 t, ?_⟩
  show i ∈ ((View.whole main_v55).slice (win2_3.rect t)).set
  rw [View.set_slice_whole, Rect.mem_set_unit]
  intro a
  match a with
  | ⟨0, _⟩ => show win2_3.index t (0 : Fin 2) * 2048 ≤ (i 0).val ∧ (i 0).val < win2_3.index t (0 : Fin 2) * 2048 + 2048; rw [e3a, ht]; omega
  | ⟨1, _⟩ => show win2_3.index t (1 : Fin 2) * 128 ≤ (i 1).val ∧ (i 1).val < win2_3.index t (1 : Fin 2) * 128 + 128; rw [e3b]; omega

/-- THE RESULT ARRAY after the region: the layer of the arrays the region was entered with. -/
theorem final (c : Dev nD) : (dat2 V c).arrAt 3 cfg2.N = Layer.relu (Layer.lin (V c main_v52) (V c main_v53) (V c main_v54)) :=
  (dat2 V c).arrAt_eq_of_cover 3 _ (fun t _ => flushed_eq V c t) (cover)

end Cert.KernelIdeal.Region2

end
-- ==== Proof.Region3.lean ====
/-
  Layer 3 of the idealized kernel as ONE function of the arrays its region is entered with. The region walks 2 blocks
  of 2048 rows; at block `t` the body reads rows 2048·t … of its row-blocked operand, the weights and the
  bias row whole, and writes rows 2048·t … of the [4096, 40] result. Entry (p, q) of a block depends on row p of
  the block only, so what block `t` writes back is block `t` of the layer of the whole arrays; the blocks tile the
  result (row `r` is in block `r / 2048`), so after the last block the result array IS that layer.
-/
import proofs.«161704_j29746943492301_1_alg».proof.Proof.Gen.KernelIdeal.Frame
import proofs.«161704_j29746943492301_1_alg».proof.Proof.KernelBodies
import proofs.«161704_j29746943492301_1_alg».proof.Proof.LayerSpec
import Idealize.ShloMosaic.Lib.Pipeline.Value

set_option maxRecDepth 16384

noncomputable section

namespace Cert.KernelIdeal.Region3

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole window's (0, 0). -/
theorem idx_facts : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0) :=
  (by decide +kernel : ∀ t : Fin grid3.N, _)

/-- Row `p` of block `t` is row `2048·t + p` of the array. -/
def row (t : Fin cfg3.N) (p : Fin 2048) : Fin 4096 :=
  ⟨t.val * 2048 + p.val, by have h : t.val < 2 := t.isLt; have := p.isLt; omega⟩

/-- Window 0's block at point `t` is rows `2048·t … 2048·t + 2047` of its array as the region finds it. -/
theorem blk0 (c : Dev nD) (t : Fin cfg3.N) (p : Fin 2048) (k : Fin 128) :
    (iblk3 V c 0 t : FVec Ideal S2048x128 .bf16) (ix2 p k) = (V c main_v56 : S4096x128.Idx → EReal) (ix2 (row t p) k) := by
  obtain ⟨⟨e0a, e0b⟩, ⟨e1a, e1b⟩, ⟨e2a, e2b⟩, ⟨e3a, e3b⟩⟩ := idx_facts t
  unfold iblk3
  rw [View.read_apply]
  show V c main_v56 _ = V c main_v56 _
  congr 1
  funext a
  apply Fin.ext
  match a with
  | ⟨0, _⟩ => show win3_0.index t (0 : Fin 2) * 2048 + 1 * p.val = t.val * 2048 + p.val; rw [e0a]; omega
  | ⟨1, _⟩ => show win3_0.index t (1 : Fin 2) * 128 + 1 * k.val = k.val; rw [e0b]; omega

/-- Window 1 holds its array whole at every point. -/
theorem blk1 (c : Dev nD) (t : Fin cfg3.N) (p : Fin 128) (k : Fin 40) :
    (iblk3 V c 1 t : FVec Ideal S128x40 .bf16) (ix2 p k) = (V c main_v57 : S128x40.Idx → EReal) (ix2 p k) := by
  obtain ⟨⟨e0a, e0b⟩, ⟨e1a, e1b⟩, ⟨e2a, e2b⟩, ⟨e3a, e3b⟩⟩ := idx_facts t
  unfold iblk3
  rw [View.read_apply]
  show V c main_v57 _ = V c main_v57 _
  congr 1
  funext a
  apply Fin.ext
  match a with
  | ⟨0, _⟩ => show win3_1.index t (0 : Fin 2) * 128 + 1 * p.val = p.val; rw [e1a]; omega
  | ⟨1, _⟩ => show win3_1.index t (1 : Fin 2) * 40 + 1 * k.val = k.val; rw [e1b]; omega

/-- Window 2 holds its array whole at every point. -/
theorem blk2 (c : Dev nD) (t : Fin cfg3.N) (p : Fin 1) (k : Fin 40) :
    (iblk3 V c 2 t : FVec Ideal S1x40 .f32) (ix2 p k) = (V c main_v58 : S1x40.Idx → EReal) (ix2 p k) := by
  obtain ⟨⟨e0a, e0b⟩, ⟨e1a, e1b⟩, ⟨e2a, e2b⟩, ⟨e3a, e3b⟩⟩ := idx_facts t
  unfold iblk3
  rw [View.read_apply]
  show V c main_v58 _ = V c main_v58 _
  congr 1
  funext a
  apply Fin.ext
  match a with
  | ⟨0, _⟩ => show win3_2.index t (0 : Fin 2) * 1 + 1 * p.val = p.val; rw [e2a]; omega
  | ⟨1, _⟩ => show win3_2.index t (1 : Fin 2) * 40 + 1 * k.val = k.val; rw [e2b]; omega

/-- WHAT BLOCK `t` WRITES BACK is block `t` of the layer of the whole arrays. -/
theorem flushed_eq (c : Dev nD) (t : Fin cfg3.N) :
    (dat3 V c).flushed 3 t = ((cfg3.win 3).blk t).view.read (Elt Ideal) (Layer.relu (Layer.lin (V c main_v56) (V c main_v57) (V c main_v58))) := by
  show (cfg3.win 3).cut (grid3.coords t) ((dat3 V c).after 3 t) = _
  rw [after3_3]
  unfold out3_3
  rw [View.canon_unit_zero hz]
  simp only [View.ld_unit_zero (S := S2048x128) hz, View.ld_unit_zero (S := S128x40) hz, View.ld_unit_zero (S := S1x40) hz]
  obtain ⟨⟨e0a, e0b⟩, ⟨e1a, e1b⟩, ⟨e2a, e2b⟩, ⟨e3a, e3b⟩⟩ := idx_facts t
  funext j
  obtain ⟨p, q, rfl⟩ : ∃ (p : Fin 2048) (q : Fin 40), j = ix2 p q := ⟨j 0, j 1, eq_ix2 j⟩
  rw [View.read_apply]
  have hemb : ((cfg3.win 3).blk t).view.emb (ix2 p q) = (ix2 (row t p) q : S4096x40.Idx) := by
    funext a
    apply Fin.ext
    match a with
    | ⟨0, _⟩ => show win3_3.index t (0 : Fin 2) * 2048 + 1 * p.val = t.val * 2048 + p.val; rw [e3a]; omega
    | ⟨1, _⟩ => show win3_3.index t (1 : Fin 2) * 40 + 1 * q.val = q.val; rw [e3b]; omega
  rw [hemb]
  refine (pay3_apply (iblk3 V c 0 t) (iblk3 V c 1 t) (iblk3 V c 2 t) p q).trans ?_
  simp only [blk0 V c t, blk1 V c t, blk2 V c t]
  rfl

/-- Every index of the result array is in some block: row `r` in block `r / 2048`. -/
theorem cover (i : S4096x40.Idx) : ∃ t : Fin cfg3.N, (cfg3.win 3).flush t = true ∧ i ∈ ((cfg3.win 3).blk t).view.set := by
  have hi0 : (i 0).val < 4096 := (i 0).isLt
  have hi1 : (i 1).val < 40 := (i 1).isLt
  let t : Fin cfg3.N := ⟨(i 0).val / 2048, by show (i 0).val / 2048 < 2; omega⟩
  have ht : t.val = (i 0).val / 2048 := rfl
  obtain ⟨⟨e0a, e0b⟩, ⟨e1a, e1b⟩, ⟨e2a, e2b⟩, ⟨e3a, e3b⟩⟩ := idx_facts t
  refine ⟨t, flush3_3 t, ?_⟩
  show i ∈ ((View.whole main_v59).slice (win3_3.rect t)).set
  rw [View.set_slice_whole, Rect.mem_set_unit]
  intro a
  match a with
  | ⟨0, _⟩ => show win3_3.index t (0 : Fin 2) * 2048 ≤ (i 0).val ∧ (i 0).val < win3_3.index t (0 : Fin 2) * 2048 + 2048; rw [e3a, ht]; omega
  | ⟨1, _⟩ => show win3_3.index t (1 : Fin 2) * 40 ≤ (i 1).val ∧ (i 1).val < win3_3.index t (1 : Fin 2) * 40 + 40; rw [e3b]; omega

/-- THE RESULT ARRAY after the region: the layer of the arrays the region was entered with. -/
theorem final (c : Dev nD) : (dat3 V c).arrAt 3 cfg3.N = Layer.relu (Layer.lin (V c main_v56) (V c main_v57) (V c main_v58)) :=
  (dat3 V c).arrAt_eq_of_cover 3 _ (fun t _ => flushed_eq V c t) (cover)

end Cert.KernelIdeal.Region3

end
-- ==== Proof.KernelValue.lean ====
/-
  The idealized kernel's result as the reference's function of the arguments. Walk the boundaries of @main in order.
  Layer 1's result array is the layer function of what the first stretch left (the aggregation chain of the arguments,
  the first rows of `x`, the weights, the bias row), and the reference's first layer is the same function of the same
  operands. Layer 2's operands are the chain and the row slice of layer 1's result, which is the reference's; layers 3
  and 4 take the previous result, weights and bias row; the log-softmax of equal matrices is equal. An argument read at
  a later boundary is the launch value, since neither a stretch nor a region writes it.
-/
import proofs.«161704_j29746943492301_1_alg».proof.Proof.KernelChain
import proofs.«161704_j29746943492301_1_alg».proof.Proof.Region0
import proofs.«161704_j29746943492301_1_alg».proof.Proof.Region1
import proofs.«161704_j29746943492301_1_alg».proof.Proof.Region2
import proofs.«161704_j29746943492301_1_alg».proof.Proof.Region3

set_option maxRecDepth 16384

noncomputable section

namespace Cert.KernelIdeal.OutValue

open Cert.KernelIdeal Cert.KernelIdeal.Gen Cert.KernelIdeal.Chain Idealize.ShloMosaic Idealize.ShloMosaic.TcCoe Idealize.ShloMosaic.StableHlo
open Idealize.SL.Sem

variable (m : (ℓ : Loc nD τ sig) → Buf (Elt Ideal) ℓ) (ρ : Dev nD → PrngReg)

/-! ## The arguments at the later boundaries -/

theorem W2_arg3 (c : Dev nD) : W2 m ρ c (Proc.devRef .tc main_arg3) = m ((c : Thread nD τ).loc main_arg3) :=
  (W2_of_ne m ρ c main_arg3 (by decide)).trans (keep_hostOps0_arg3 (W0 m ρ c))
theorem W2_arg4 (c : Dev nD) : W2 m ρ c (Proc.devRef .tc main_arg4) = m ((c : Thread nD τ).loc main_arg4) :=
  (W2_of_ne m ρ c main_arg4 (by decide)).trans (keep_hostOps0_arg4 (W0 m ρ c))
theorem W2_arg8 (c : Dev nD) : W2 m ρ c (Proc.devRef .tc main_arg8) = m ((c : Thread nD τ).loc main_arg8) :=
  (W2_of_ne m ρ c main_arg8 (by decide)).trans (keep_hostOps0_arg8 (W0 m ρ c))
theorem W2_arg9 (c : Dev nD) : W2 m ρ c (Proc.devRef .tc main_arg9) = m ((c : Thread nD τ).loc main_arg9) :=
  (W2_of_ne m ρ c main_arg9 (by decide)).trans (keep_hostOps0_arg9 (W0 m ρ c))
theorem W2_arg10 (c : Dev nD) : W2 m ρ c (Proc.devRef .tc main_arg10) = m ((c : Thread nD τ).loc main_arg10) :=
  (W2_of_ne m ρ c main_arg10 (by decide)).trans (keep_hostOps0_arg10 (W0 m ρ c))
theorem W2_arg11 (c : Dev nD) : W2 m ρ c (Proc.devRef .tc main_arg11) = m ((c : Thread nD τ).loc main_arg11) :=
  (W2_of_ne m ρ c main_arg11 (by decide)).trans (keep_hostOps0_arg11 (W0 m ρ c))
theorem W2_arg12 (c : Dev nD) : W2 m ρ c (Proc.devRef .tc main_arg12) = m ((c : Thread nD τ).loc main_arg12) :=
  (W2_of_ne m ρ c main_arg12 (by decide)).trans (keep_hostOps0_arg12 (W0 m ρ c))
theorem W2_arg13 (c : Dev nD) : W2 m ρ c (Proc.devRef .tc main_arg13) = m ((c : Thread nD τ).loc main_arg13) :=
  (W2_of_ne m ρ c main_arg13 (by decide)).trans (keep_hostOps0_arg13 (W0 m ρ c))
theorem W2_arg14 (c : Dev nD) : W2 m ρ c (Proc.devRef .tc main_arg14) = m ((c : Thread nD τ).loc main_arg14) :=
  (W2_of_ne m ρ c main_arg14 (by decide)).trans (keep_hostOps0_arg14 (W0 m ρ c))
theorem W4_arg11 (c : Dev nD) : W4 m ρ c (Proc.devRef .tc main_arg11) = m ((c : Thread nD τ).loc main_arg11) :=
  (W4_of_ne m ρ c main_arg11 (by decide)).trans ((keep_hostOps1_arg11 (W2 m ρ c)).trans (W2_arg11 m ρ c))
theorem W4_arg12 (c : Dev nD) : W4 m ρ c (Proc.devRef .tc main_arg12) = m ((c : Thread nD τ).loc main_arg12) :=
  (W4_of_ne m ρ c main_arg12 (by decide)).trans ((keep_hostOps1_arg12 (W2 m ρ c)).trans (W2_arg12 m ρ c))
theorem W4_arg13 (c : Dev nD) : W4 m ρ c (Proc.devRef .tc main_arg13) = m ((c : Thread nD τ).loc main_arg13) :=
  (W4_of_ne m ρ c main_arg13 (by decide)).trans ((keep_hostOps1_arg13 (W2 m ρ c)).trans (W2_arg13 m ρ c))
theorem W4_arg14 (c : Dev nD) : W4 m ρ c (Proc.devRef .tc main_arg14) = m ((c : Thread nD τ).loc main_arg14) :=
  (W4_of_ne m ρ c main_arg14 (by decide)).trans ((keep_hostOps1_arg14 (W2 m ρ c)).trans (W2_arg14 m ρ c))
theorem W6_arg13 (c : Dev nD) : W6 m ρ c (Proc.devRef .tc main_arg13) = m ((c : Thread nD τ).loc main_arg13) :=
  (W6_of_ne m ρ c main_arg13 (by decide)).trans ((keep_hostOps2_arg13 (W4 m ρ c)).trans (W4_arg13 m ρ c))
theorem W6_arg14 (c : Dev nD) : W6 m ρ c (Proc.devRef .tc main_arg14) = m ((c : Thread nD τ).loc main_arg14) :=
  (W6_of_ne m ρ c main_arg14 (by decide)).trans ((keep_hostOps2_arg14 (W4 m ρ c)).trans (W4_arg14 m ρ c))

/-! ## The four layers and the result -/

/-- Layer 1's result array is the reference's first layer of the arguments. -/
theorem layer1_eq (c : Dev nD) :
    (W2 m ρ c (Proc.devRef .tc main_v25) : S32768x256.Idx → EReal)
      = Cert.ReferenceIdeal.ReadP.val_main_v26 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  rw [Cert.ReferenceIdeal.Layers.layer1]
  refine (W2_arr m ρ c 5).trans ?_
  rw [Region0.final (V1 m ρ) c]
  have e20 : (V1 m ρ c main_v20 : S32768x512.Idx → EReal) = Cert.ReferenceIdeal.ReadP.val_main_v19 (F := Ideal) (m ((c : Thread nD τ).loc main_arg0)) (m ((c : Thread nD τ).loc main_arg1)) (m ((c : Thread nD τ).loc main_arg2)) := s0_v20 (W0 m ρ c)
  have e21 : (V1 m ρ c main_v21 : S32768x512.Idx → EReal) = Cert.ReferenceIdeal.ReadP.val_main_v0 (F := Ideal) (m ((c : Thread nD τ).loc main_arg0)) := s0_v21 (W0 m ρ c)
  have e22 : (V1 m ρ c main_v22 : S512x256.Idx → EReal) = (m ((c : Thread nD τ).loc main_arg5)) := s0_v22 (W0 m ρ c)
  have e23 : (V1 m ρ c main_v23 : S512x256.Idx → EReal) = (m ((c : Thread nD τ).loc main_arg6)) := s0_v23 (W0 m ρ c)
  have e24 : (V1 m ρ c main_v24 : S1x256.Idx → EReal) = Cert.ReferenceIdeal.Layers.rowOf (m ((c : Thread nD τ).loc main_arg7)) := s0_v24 (W0 m ρ c)
  rw [e20, e21, e22, e23, e24]

/-- Layer 2's result array is the reference's second layer. -/
theorem layer2_eq (c : Dev nD) :
    (W4 m ρ c (Proc.devRef .tc main_v51) : S4096x128.Idx → EReal)
      = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.ReferenceIdeal.Layers.layer2, ← layer1_eq m ρ c]
  refine (W4_arr m ρ c 5).trans ?_
  rw [Region1.final (V3 m ρ) c]
  have e46 : (V3 m ρ c main_v46 : S4096x256.Idx → EReal) = Cert.ReferenceIdeal.Layers.agg2 (F := Ideal) (W2 m ρ c (Proc.devRef .tc main_v25)) (m ((c : Thread nD τ).loc main_arg3)) (m ((c : Thread nD τ).loc main_arg4)) :=
    (s1_v46 (W2 m ρ c)).trans (by rw [W2_arg3 m ρ c, W2_arg4 m ρ c])
  have e47 : (V3 m ρ c main_v47 : S4096x256.Idx → EReal) = Cert.ReferenceIdeal.Layers.head2 (F := Ideal) (W2 m ρ c (Proc.devRef .tc main_v25)) := s1_v47 (W2 m ρ c)
  have e48 : (V3 m ρ c main_v48 : S256x128.Idx → EReal) = (m ((c : Thread nD τ).loc main_arg8)) := (s1_v48 (W2 m ρ c)).trans (W2_arg8 m ρ c)
  have e49 : (V3 m ρ c main_v49 : S256x128.Idx → EReal) = (m ((c : Thread nD τ).loc main_arg9)) := (s1_v49 (W2 m ρ c)).trans (W2_arg9 m ρ c)
  have e50 : (V3 m ρ c main_v50 : S1x128.Idx → EReal) = Cert.ReferenceIdeal.Layers.rowOf (m ((c : Thread nD τ).loc main_arg10)) := (s1_v50 (W2 m ρ c)).trans (by rw [W2_arg10 m ρ c])
  rw [e46, e47, e48, e49, e50]

/-- Layer 3's result array is the reference's third layer. -/
theorem layer3_eq (c : Dev nD) :
    (W6 m ρ c (Proc.devRef .tc main_v55) : S4096x128.Idx → EReal)
      = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cert.ReferenceIdeal.Layers.layer3, ← layer2_eq m ρ c]
  refine (W6_arr m ρ c 3).trans ?_
  rw [Region2.final (V5 m ρ) c]
  have e52 : (V5 m ρ c main_v52 : S4096x128.Idx → EReal) = (W4 m ρ c (Proc.devRef .tc main_v51) : S4096x128.Idx → EReal) := s2_v52 (W4 m ρ c)
  have e53 : (V5 m ρ c main_v53 : S128x128.Idx → EReal) = (m ((c : Thread nD τ).loc main_arg11)) := (s2_v53 (W4 m ρ c)).trans (W4_arg11 m ρ c)
  have e54 : (V5 m ρ c main_v54 : S1x128.Idx → EReal) = Cert.ReferenceIdeal.Layers.rowOf (m ((c : Thread nD τ).loc main_arg12)) := (s2_v54 (W4 m ρ c)).trans (by rw [W4_arg12 m ρ c])
  rw [e52, e53, e54]

/-- Layer 4's result array is the reference's fourth layer. -/
theorem layer4_eq (c : Dev nD) :
    (W8 m ρ c (Proc.devRef .tc main_v59) : S4096x40.Idx → EReal)
      = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Cert.ReferenceIdeal.Layers.layer4, ← layer3_eq m ρ c]
  refine (W8_arr m ρ c 3).trans ?_
  rw [Region3.final (V7 m ρ) c]
  have e56 : (V7 m ρ c main_v56 : S4096x128.Idx → EReal) = (W6 m ρ c (Proc.devRef .tc main_v55) : S4096x128.Idx → EReal) := s3_v56 (W6 m ρ c)
  have e57 : (V7 m ρ c main_v57 : S128x40.Idx → EReal) = (m ((c : Thread nD τ).loc main_arg13)) := (s3_v57 (W6 m ρ c)).trans (W6_arg13 m ρ c)
  have e58 : (V7 m ρ c main_v58 : S1x40.Idx → EReal) = Cert.ReferenceIdeal.Layers.rowOf (m ((c : Thread nD τ).loc main_arg14)) := (s3_v58 (W6 m ρ c)).trans (by rw [W6_arg14 m ρ c])
  rw [e56, e57, e58]

/-- THE RESULT: the last boundary's contents at the result buffer are the reference's function of the arguments. -/
theorem out_eq (c : Dev nD) :
    (W9 m ρ c (Proc.devRef .tc main_v60) : S4096x40.Idx → EReal)
      = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Cert.ReferenceIdeal.Layers.v63_eq, ← layer4_eq m ρ c]
  exact s4_v60 (W8 m ρ c)

end Cert.KernelIdeal.OutValue

end
-- ==== Proof.lean ====
/-
  A two-layer sampled GraphSAGE network with a two-layer classifier and a row-wise log-softmax: the kernel program
  computes the four linear layers in row blocks of 2048 on the matrix unit, from operands narrowed to bfloat16; the
  reference computes them as whole matrix products in float32. Read at the extended reals, where a change of float
  format is the identity and every operation is exact, the two programs are the same function of the arguments:

    * the gather / segment-sum / mean chains, the row slices and the final log-softmax are the same host operations
      on both sides, applied to equal operands, and are never opened;
    * a layer computed block of rows by block of rows is the layer of the whole matrices, because entry (p, q) of a
      product depends on row p of the left operand only, and the blocks tile the result;
    * the kernel adds the bias after both products, (a·W_l + x·W_r) + b, the reference between them, (a·W_l + b) + x·W_r:
      equal by commutativity and associativity of addition, which need no finiteness on the extended reals.

  So the precondition (finite float inputs) is never opened. The three frames are the generated frame runs (the
  reference's frame is its run with the result dropped); the idealization rewrote nothing, so `preserves` is trivial.
-/
import proofs.«161704_j29746943492301_1_alg».proof.Defs
import proofs.«161704_j29746943492301_1_alg».proof.Proof.Gen.Kernel
import proofs.«161704_j29746943492301_1_alg».proof.Proof.Gen.Kernel.Skeleton
import proofs.«161704_j29746943492301_1_alg».proof.Proof.Gen.Kernel.Launch
import proofs.«161704_j29746943492301_1_alg».proof.Proof.Gen.Kernel.Points
import proofs.«161704_j29746943492301_1_alg».proof.Proof.Gen.Kernel.Frame
import proofs.«161704_j29746943492301_1_alg».proof.Proof.Gen.KernelIdeal
import proofs.«161704_j29746943492301_1_alg».proof.Proof.Gen.KernelIdeal.Skeleton
import proofs.«161704_j29746943492301_1_alg».proof.Proof.Gen.KernelIdeal.Launch
import proofs.«161704_j29746943492301_1_alg».proof.Proof.Gen.KernelIdeal.Points
import proofs.«161704_j29746943492301_1_alg».proof.Proof.Gen.KernelIdeal.Frame
import proofs.«161704_j29746943492301_1_alg».proof.Proof.Gen.ReferenceIdeal
import proofs.«161704_j29746943492301_1_alg».proof.Proof.Gen.Pre_finite_inputs
import proofs.«161704_j29746943492301_1_alg».proof.Proof.RefRun
import proofs.«161704_j29746943492301_1_alg».proof.Proof.RefRead
import proofs.«161704_j29746943492301_1_alg».proof.Proof.KernelRun
import proofs.«161704_j29746943492301_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the reference's function of the
    arguments in their result arrays. -/
theorem algebraic : Cert.algebraic_KernelIdeal_ReferenceIdeal := by
  intro m ρ m' ρ' _ hagree
  refine ⟨fun c => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.OutValue.out_eq m ρ c), (h c).2⟩) (Cert.KernelIdeal.Out.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v63_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
